-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_v79) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x256x384 : Shape := ⟨3, ![128, 256, 384]⟩
abbrev S128x256 : Shape := ⟨2, ![128, 256]⟩
abbrev S_ : Shape := ⟨0, ![]⟩

class Facts : Prop where
  bcast_S_S128x256x384 : S_.BroadcastsInDim S128x256x384 (![] : Fin 0 → Fin S128x256x384.rank)
  reducesTo_S128x256x384_S_d0_1_2 : S128x256x384.ReducesTo [0, 1, 2] S_
  h_S_ : 0 < S_.numel

variable [Facts]

def fn {F : FTy → Type} [FloatOps F] (main_arg0 : FVec F S128x256x384 .f32) (main_arg1 : FVec F S128x256x384 .f32) (main_arg2 : IVec S128x256 32) (main_arg3 : IVec S128x256 32) : IVec S_ 1 :=
  let main_v0 : FVec F S128x256x384 .f32 := Host.absf main_arg0
  let main_cst : FVec F S_ .f32 := constant S_ .f32 0x7F800000#32
  let main_v1 : FVec F S128x256x384 .f32 := broadcastInDim S128x256x384 ![] bcast_S_S128x256x384 main_cst
  let main_v2 : IVec S128x256x384 1 := cmpf .olt main_v0 main_v1
  let main_c : IVec S_ 1 := constantI S_ 1 1#1
  let main_v3 : IVec S_ 1 := (fun x v => Host.reduce IntOp.andi x v reducesTo_S128x256x384_S_d0_1_2 h_S_) main_v2 main_c
  let main_v4 : FVec F S128x256x384 .f32 := Host.absf main_arg1
  let main_cst_0 : FVec F S_ .f32 := constant S_ .f32 0x7F800000#32
  let main_v5 : FVec F S128x256x384 .f32 := broadcastInDim S128x256x384 ![] bcast_S_S128x256x384 main_cst_0
  let main_v6 : IVec S128x256x384 1 := cmpf .olt main_v4 main_v5
  let main_c_1 : IVec S_ 1 := constantI S_ 1 1#1
  let main_v7 : IVec S_ 1 := (fun x v => Host.reduce IntOp.andi x v reducesTo_S128x256x384_S_d0_1_2 h_S_) main_v6 main_c_1
  let main_v8 : IVec S_ 1 := andi main_v3 main_v7
  main_v8
-- ==== Kernel.lean ====
abbrev S128x256x384 : Shape := ⟨3, ![128, 256, 384]⟩
abbrev S128x256 : Shape := ⟨2, ![128, 256]⟩
abbrev S128x768 : Shape := ⟨2, ![128, 768]⟩
abbrev S16x256x384 : Shape := ⟨3, ![16, 256, 384]⟩
abbrev S16x256 : Shape := ⟨2, ![16, 256]⟩
abbrev S16x768 : Shape := ⟨2, ![16, 768]⟩
abbrev S16x256x256 : Shape := ⟨3, ![16, 256, 256]⟩
abbrev S16x256x1 : Shape := ⟨3, ![16, 256, 1]⟩
abbrev S16x1x256 : Shape := ⟨3, ![16, 1, 256]⟩
abbrev S16x384 : Shape := ⟨2, ![16, 384]⟩
abbrev S16 : Shape := ⟨1, ![16]⟩
abbrev S16x1 : Shape := ⟨2, ![16, 1]⟩

abbrev nBuf : Space → Nat
  | .hbm => 6
  | .vmem => 12
  | .smem => 0
  | _ => 0

abbrev bufTy : (tb : Table) → Fin (tcTables nBuf tb) → BufTy
  | .hbm, ⟨0, _⟩ => ⟨S128x256x384, .f32⟩
  | .hbm, ⟨1, _⟩ => ⟨S128x256x384, .f32⟩
  | .hbm, ⟨2, _⟩ => ⟨S128x256, .i32⟩
  | .hbm, ⟨3, _⟩ => ⟨S128x256, .i32⟩
  | .hbm, ⟨4, _⟩ => ⟨S128x768, .f32⟩
  | .hbm, ⟨5, _⟩ => ⟨S128x768, .f32⟩
  | .local _ .vmem, ⟨0, _⟩ => ⟨S16x256x384, .f32⟩
  | .local _ .vmem, ⟨1, _⟩ => ⟨S16x256x384, .f32⟩
  | .local _ .vmem, ⟨2, _⟩ => ⟨S16x256x384, .f32⟩
  | .local _ .vmem, ⟨3, _⟩ => ⟨S16x256x384, .f32⟩
  | .local _ .vmem, ⟨4, _⟩ => ⟨S16x256, .i32⟩
  | .local _ .vmem, ⟨5, _⟩ => ⟨S16x256, .i32⟩
  | .local _ .vmem, ⟨6, _⟩ => ⟨S16x256, .i32⟩
  | .local _ .vmem, ⟨7, _⟩ => ⟨S16x256, .i32⟩
  | .local _ .vmem, ⟨8, _⟩ => ⟨S16x768, .f32⟩
  | .local _ .vmem, ⟨9, _⟩ => ⟨S16x768, .f32⟩
  | .local _ .vmem, ⟨10, _⟩ => ⟨S16x768, .f32⟩
  | .local _ .vmem, ⟨11, _⟩ => ⟨S16x768, .f32⟩
  | _, _ => ⟨S128x256x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x256x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x256x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x256 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x256 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  inb_S16x256x384_S16x256x384_0_0_0 : ∀ a, (![0, 0, 0] : Fin 3 → Nat) a + S16x256x384.size a ≤ S16x256x384.size a
  h_S16x256x384 : 0 < S16x256x384.numel
  inb_S16x256_S16x256_0_0 : ∀ a, (![0, 0] : Fin 2 → Nat) a + S16x256.size a ≤ S16x256.size a
  h_S16x256 : 0 < S16x256.numel
  bitsLt_bf16_f32 : FTy.bits .bf16 < FTy.bits .f32
  reduces_S16x256x256_S16x256 : S16x256x256.Reduces [2] S16x256
  shapeCasts_S16x256_S16x256x1 : S16x256.ShapeCasts S16x256x1
  broadcasts_S16x256x1_S16x256x256 : S16x256x1.Broadcasts S16x256x256
  reduces_S16x256x256_S16x256_2 : S16x256x256.Reduces [1] S16x256
  shapeCasts_S16x256_S16x1x256 : S16x256.ShapeCasts S16x1x256
  broadcasts_S16x1x256_S16x256x256 : S16x1x256.Broadcasts S16x256x256
  reduces_S16x256x384_S16x256 : S16x256x384.Reduces [2] S16x256
  broadcasts_S16x256x1_S16x256x384 : S16x256x1.Broadcasts S16x256x384
  reduces_S16x256x384_S16x384 : S16x256x384.Reduces [1] S16x384
  concatenates_S16x384_S16x384_S16x768_d1 : Shape.Concatenates [S16x384, S16x384] S16x768 1
  reduces_S16x256_S16 : S16x256.Reduces [1] S16
  shapeCasts_S16_S16x1 : S16.ShapeCasts S16x1
  broadcasts_S16x1_S16x768 : S16x1.Broadcasts S16x768
  reduces_S16x768_S16 : S16x768.Reduces [1] S16
  inb_S16x768_S16x768_0_0 : ∀ a, (![0, 0] : Fin 2 → Nat) a + S16x768.size a ≤ S16x768.size a
  h_S16x768 : 0 < S16x768.numel
  dot_S16x256x384_S16x256x384_S16x256x256_2_2_1_1_0_0_wf : DotDims.WF S16x256x384 S16x256x384 S16x256x256 [2] [2] [1] [1] [0] [0]
  dot_S16x256x256_S16x256x384_S16x256x384_2_1_1_2_0_0_wf : DotDims.WF S16x256x256 S16x256x384 S16x256x384 [2] [1] [1] [2] [0] [0]
  dot_S16x256x256_S16x256x384_S16x256x384_1_1_2_2_0_0_wf : DotDims.WF S16x256x256 S16x256x384 S16x256x384 [1] [1] [2] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x256x384.size a ≤ S128x256x384.size a
  hwx0_0 : ∀ i : grid0.Coords, EltTy.bits .f32 = 32 ∨ (Rect.block (s := S128x256x384) S16x256x384.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x256x384.size a ≤ S128x256x384.size a
  hwx0_1 : ∀ i : grid0.Coords, EltTy.bits .f32 = 32 ∨ (Rect.block (s := S128x256x384) S16x256x384.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x256.size a ≤ S128x256.size a
  hwx0_2 : ∀ i : grid0.Coords, EltTy.bits .i32 = 32 ∨ (Rect.block (s := S128x256) S16x256.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x256.size a ≤ S128x256.size a
  hwx0_3 : ∀ i : grid0.Coords, EltTy.bits .i32 = 32 ∨ (Rect.block (s := S128x256) S16x256.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S16x768.size a ≤ S128x768.size a
  hwx0_4 : ∀ i : grid0.Coords, EltTy.bits .f32 = 32 ∨ (Rect.block (s := S128x768) S16x768.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S16x768.size a ≤ S128x768.size a
  hwx0_5 : ∀ i : grid0.Coords, EltTy.bits .f32 = 32 ∨ (Rect.block (s := S128x768) S16x768.size (cc0_transform_5 i) (hinb0_5 i)).WholeWords (EltTy.packing .f32)

variable [Facts₀]

def dot_S16x256x384_S16x256x384_S16x256x256_2_2_1_1_0_0 : DotDims S16x256x384 S16x256x384 S16x256x256 where
  lhsContracting := [2]
  rhsContracting := [2]
  lhsNonContracting := [1]
  rhsNonContracting := [1]
  lhsBatch := [0]
  rhsBatch := [0]
  wf := dot_S16x256x384_S16x256x384_S16x256x256_2_2_1_1_0_0_wf
def dot_S16x256x256_S16x256x384_S16x256x384_2_1_1_2_0_0 : DotDims S16x256x256 S16x256x384 S16x256x384 where
  lhsContracting := [2]
  rhsContracting := [1]
  lhsNonContracting := [1]
  rhsNonContracting := [2]
  lhsBatch := [0]
  rhsBatch := [0]
  wf := dot_S16x256x256_S16x256x384_S16x256x384_2_1_1_2_0_0_wf
def dot_S16x256x256_S16x256x384_S16x256x384_1_1_2_2_0_0 : DotDims S16x256x256 S16x256x384 S16x256x384 where
  lhsContracting := [1]
  rhsContracting := [1]
  lhsNonContracting := [2]
  rhsNonContracting := [2]
  lhsBatch := [0]
  rhsBatch := [0]
  wf := dot_S16x256x256_S16x256x384_S16x256x384_1_1_2_2_0_0_wf

abbrev win0_0 : Pipeline.Window sig grid0 :=
  Pipeline.Window.ofSpec (Memref.whole main_arg0) S16x256x384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S16x256x384.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S16x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S16x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_0) S16x768.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_1) S16x768.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S128x256x384 : Shape := ⟨3, ![128, 256, 384]⟩
abbrev S128x256 : Shape := ⟨2, ![128, 256]⟩
abbrev S128x256x256 : Shape := ⟨3, ![128, 256, 256]⟩
abbrev S_ : Shape := ⟨0, ![]⟩
abbrev S128x256x1 : Shape := ⟨3, ![128, 256, 1]⟩
abbrev S128x256x768 : Shape := ⟨3, ![128, 256, 768]⟩
abbrev S128x768 : Shape := ⟨2, ![128, 768]⟩
abbrev S128x1 : Shape := ⟨2, ![128, 1]⟩
abbrev S128 : Shape := ⟨1, ![128]⟩

abbrev nBuf : Space → Nat
  | .hbm => 104
  | .vmem => 0
  | .smem => 0
  | _ => 0

abbrev bufTy : (tb : Table) → Fin (tcTables nBuf tb) → BufTy
  | .hbm, ⟨0, _⟩ => ⟨S128x256x384, .f32⟩
  | .hbm, ⟨1, _⟩ => ⟨S128x256x384, .f32⟩
  | .hbm, ⟨2, _⟩ => ⟨S128x256, .i32⟩
  | .hbm, ⟨3, _⟩ => ⟨S128x256, .i32⟩
  | .hbm, ⟨4, _⟩ => ⟨S128x256x256, .f32⟩
  | .hbm, ⟨5, _⟩ => ⟨S_, .f32⟩
  | .hbm, ⟨6, _⟩ => ⟨S128x256, .f32⟩
  | .hbm, ⟨7, _⟩ => ⟨S_, .f32⟩
  | .hbm, ⟨8, _⟩ => ⟨S128x256, .f32⟩
  | .hbm, ⟨9, _⟩ => ⟨S128x256, .f32⟩
  | .hbm, ⟨10, _⟩ => ⟨S128x256x1, .f32⟩
  | .hbm, ⟨11, _⟩ => ⟨S128x256x256, .f32⟩
  | .hbm, ⟨12, _⟩ => ⟨S128x256x256, .f32⟩
  | .hbm, ⟨13, _⟩ => ⟨S128x256x256, .f32⟩
  | .hbm, ⟨14, _⟩ => ⟨S_, .f32⟩
  | .hbm, ⟨15, _⟩ => ⟨S128x256, .f32⟩
  | .hbm, ⟨16, _⟩ => ⟨S128x256x1, .f32⟩
  | .hbm, ⟨17, _⟩ => ⟨S128x256x256, .f32⟩
  | .hbm, ⟨18, _⟩ => ⟨S128x256x256, .f32⟩
  | .hbm, ⟨19, _⟩ => ⟨S128x256x256, .f32⟩
  | .hbm, ⟨20, _⟩ => ⟨S_, .f32⟩
  | .hbm, ⟨21, _⟩ => ⟨S128x256, .f32⟩
  | .hbm, ⟨22, _⟩ => ⟨S_, .f32⟩
  | .hbm, ⟨23, _⟩ => ⟨S128x256, .f32⟩
  | .hbm, ⟨24, _⟩ => ⟨S128x256, .f32⟩
  | .hbm, ⟨25, _⟩ => ⟨S128x256x1, .f32⟩
  | .hbm, ⟨26, _⟩ => ⟨S128x256x256, .f32⟩
  | .hbm, ⟨27, _⟩ => ⟨S128x256x256, .f32⟩
  | .hbm, ⟨28, _⟩ => ⟨S128x256x256, .f32⟩
  | .hbm, ⟨29, _⟩ => ⟨S_, .f32⟩
  | .hbm, ⟨30, _⟩ => ⟨S128x256, .f32⟩
  | .hbm, ⟨31, _⟩ => ⟨S128x256x1, .f32⟩
  | .hbm, ⟨32, _⟩ => ⟨S128x256x256, .f32⟩
  | .hbm, ⟨33, _⟩ => ⟨S128x256x256, .f32⟩
  | .hbm, ⟨34, _⟩ => ⟨S128x256x384, .f32⟩
  | .hbm, ⟨35, _⟩ => ⟨S128x256x384, .f32⟩
  | .hbm, ⟨36, _⟩ => ⟨S128x256x768, .f32⟩
  | .hbm, ⟨37, _⟩ => ⟨S128x256x768, .f32⟩
  | .hbm, ⟨38, _⟩ => ⟨S_, .f32⟩
  | .hbm, ⟨39, _⟩ => ⟨S128x256, .f32⟩
  | .hbm, ⟨40, _⟩ => ⟨S128x256x1, .f32⟩
  | .hbm, ⟨41, _⟩ => ⟨S128x256x1, .f32⟩
  | .hbm, ⟨42, _⟩ => ⟨S_, .f32⟩
  | .hbm, ⟨43, _⟩ => ⟨S128x256x1, .f32⟩
  | .hbm, ⟨44, _⟩ => ⟨S128x256x1, .f32⟩
  | .hbm, ⟨45, _⟩ => ⟨S128x256x768, .f32⟩
  | .hbm, ⟨46, _⟩ => ⟨S128x256x768, .f32⟩
  | .hbm, ⟨47, _⟩ => ⟨S128x256x768, .f32⟩
  | .hbm, ⟨48, _⟩ => ⟨S128x256x768, .f32⟩
  | .hbm, ⟨49, _⟩ => ⟨S_, .f32⟩
  | .hbm, ⟨50, _⟩ => ⟨S128x256, .f32⟩
  | .hbm, ⟨51, _⟩ => ⟨S128x256x1, .f32⟩
  | .hbm, ⟨52, _⟩ => ⟨S128x256x1, .f32⟩
  | .hbm, ⟨53, _⟩ => ⟨S_, .f32⟩
  | .hbm, ⟨54, _⟩ => ⟨S128x256x1, .f32⟩
  | .hbm, ⟨55, _⟩ => ⟨S128x256x1, .f32⟩
  | .hbm, ⟨56, _⟩ => ⟨S128x256x768, .f32⟩
  | .hbm, ⟨57, _⟩ => ⟨S128x256x768, .f32⟩
  | .hbm, ⟨58, _⟩ => ⟨S128x256, .f32⟩
  | .hbm, ⟨59, _⟩ => ⟨S128x256x1, .f32⟩
  | .hbm, ⟨60, _⟩ => ⟨S128x256x768, .f32⟩
  | .hbm, ⟨61, _⟩ => ⟨S128x256x768, .f32⟩
  | .hbm, ⟨62, _⟩ => ⟨S_, .f32⟩
  | .hbm, ⟨63, _⟩ => ⟨S128x768, .f32⟩
  | .hbm, ⟨64, _⟩ => ⟨S_, .f32⟩
  | .hbm, ⟨65, _⟩ => ⟨S128x1, .f32⟩
  | .hbm, ⟨66, _⟩ => ⟨S_, .f32⟩
  | .hbm, ⟨67, _⟩ => ⟨S128x1, .f32⟩
  | .hbm, ⟨68, _⟩ => ⟨S128x1, .f32⟩
  | .hbm, ⟨69, _⟩ => ⟨S128x768, .f32⟩
  | .hbm, ⟨70, _⟩ => ⟨S128x768, .f32⟩
  | .hbm, ⟨71, _⟩ => ⟨S128x768, .f32⟩
  | .hbm, ⟨72, _⟩ => ⟨S_, .f32⟩
  | .hbm, ⟨73, _⟩ => ⟨S128, .f32⟩
  | .hbm, ⟨74, _⟩ => ⟨S128x1, .f32⟩
  | .hbm, ⟨75, _⟩ => ⟨S128x1, .f32⟩
  | .hbm, ⟨76, _⟩ => ⟨S_, .f32⟩
  | .hbm, ⟨77, _⟩ => ⟨S128x1, .f32⟩
  | .hbm, ⟨78, _⟩ => ⟨S128x1, .f32⟩
  | .hbm, ⟨79, _⟩ => ⟨S128x768, .f32⟩
  | .hbm, ⟨80, _⟩ => ⟨S128x768, .f32⟩
  | .hbm, ⟨81, _⟩ => ⟨S128x256, .f32⟩
  | .hbm, ⟨82, _⟩ => ⟨S128x256x1, .f32⟩
  | .hbm, ⟨83, _⟩ => ⟨S128x256x768, .f32⟩
  | .hbm, ⟨84, _⟩ => ⟨S128x256x768, .f32⟩
  | .hbm, ⟨85, _⟩ => ⟨S_, .f32⟩
  | .hbm, ⟨86, _⟩ => ⟨S128x768, .f32⟩
  | .hbm, ⟨87, _⟩ => ⟨S_, .f32⟩
  | .hbm, ⟨88, _⟩ => ⟨S128x1, .f32⟩
  | .hbm, ⟨89, _⟩ => ⟨S_, .f32⟩
  | .hbm, ⟨90, _⟩ => ⟨S128x1, .f32⟩
  | .hbm, ⟨91, _⟩ => ⟨S128x1, .f32⟩
  | .hbm, ⟨92, _⟩ => ⟨S128x768, .f32⟩
  | .hbm, ⟨93, _⟩ => ⟨S128x768, .f32⟩
  | .hbm, ⟨94, _⟩ => ⟨S128x768, .f32⟩
  | .hbm, ⟨95, _⟩ => ⟨S_, .f32⟩
  | .hbm, ⟨96, _⟩ => ⟨S128, .f32⟩
  | .hbm, ⟨97, _⟩ => ⟨S128x1, .f32⟩
  | .hbm, ⟨98, _⟩ => ⟨S128x1, .f32⟩
  | .hbm, ⟨99, _⟩ => ⟨S_, .f32⟩
  | .hbm, ⟨100, _⟩ => ⟨S128x1, .f32⟩
  | .hbm, ⟨101, _⟩ => ⟨S128x1, .f32⟩
  | .hbm, ⟨102, _⟩ => ⟨S128x768, .f32⟩
  | .hbm, ⟨103, _⟩ => ⟨S128x768, .f32⟩
  | _, _ => ⟨S128x256x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_5 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_6 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_7 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_8 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_cst_9 : Ref sig .tc := ⟨.hbm, 62, rfl⟩
abbrev main_v48 : Ref sig .tc := ⟨.hbm, 63, rfl⟩
abbrev main_cst_10 : Ref sig .tc := ⟨.hbm, 64, rfl⟩
abbrev main_v49 : Ref sig .tc := ⟨.hbm, 65, rfl⟩
abbrev main_cst_11 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_cst_12 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_cst_13 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_cst_14 : Ref sig .tc := ⟨.hbm, 85, rfl⟩
abbrev main_v66 : Ref sig .tc := ⟨.hbm, 86, rfl⟩
abbrev main_cst_15 : Ref sig .tc := ⟨.hbm, 87, rfl⟩
abbrev main_v67 : Ref sig .tc := ⟨.hbm, 88, rfl⟩
abbrev main_cst_16 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_cst_17 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_cst_18 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩

abbrev nD : Nat := 1
abbrev τ : Topo := Topo.v7x

variable {F : FTy → Type} [FloatOps F]

class Facts₀ : Prop where
  reducesTo_S128x256x256_S128x256_d2 : S128x256x256.ReducesTo [2] S128x256
  h_S_ : 0 < S_.numel
  bcast_S_S128x256 : S_.BroadcastsInDim S128x256 (![] : Fin 0 → Fin S128x256.rank)
  bcast_S128x256_S128x256x1_0_1 : S128x256.BroadcastsInDim S128x256x1 (![0, 1] : Fin 2 → Fin S128x256x1.rank)
  bcast_S128x256x1_S128x256x256_0_1_2 : S128x256x1.BroadcastsInDim S128x256x256 (![0, 1, 2] : Fin 3 → Fin S128x256x256.rank)
  transposes_S128x256x256_S128x256x256_0_2_1 : S128x256x256.Transposes [0, 2, 1] S128x256x256
  concatenates_S128x256x384_S128x256x384_S128x256x768_d2 : Shape.Concatenates [S128x256x384, S128x256x384] S128x256x768 2
  reducesTo_S128x256x768_S128x256_d2 : S128x256x768.ReducesTo [2] S128x256
  bcast_S_S128x256x1 : S_.BroadcastsInDim S128x256x1 (![] : Fin 0 → Fin S128x256x1.rank)
  bcast_S128x256x1_S128x256x768_0_1_2 : S128x256x1.BroadcastsInDim S128x256x768 (![0, 1, 2] : Fin 3 → Fin S128x256x768.rank)
  reducesTo_S128x256x768_S128x768_d1 : S128x256x768.ReducesTo [1] S128x768
  reducesTo_S128x256x1_S128x1_d1 : S128x256x1.ReducesTo [1] S128x1
  bcast_S_S128x1 : S_.BroadcastsInDim S128x1 (![] : Fin 0 → Fin S128x1.rank)
  bcast_S128x1_S128x768_0_1 : S128x1.BroadcastsInDim S128x768 (![0, 1] : Fin 2 → Fin S128x768.rank)
  reducesTo_S128x768_S128_d1 : S128x768.ReducesTo [1] S128
  bcast_S128_S128x1_0 : S128.BroadcastsInDim S128x1 (![0] : Fin 1 → Fin S128x1.rank)
  dot_S128x256x384_S128x256x384_S128x256x256_2_2_1_1_0_0_wf : DotDims.WF S128x256x384 S128x256x384 S128x256x256 [2] [2] [1] [1] [0] [0]
  dot_S128x256x256_S128x256x384_S128x256x384_2_1_1_2_0_0_wf : DotDims.WF S128x256x256 S128x256x384 S128x256x384 [2] [1] [1] [2] [0] [0]

variable [Facts₀]

def dot_S128x256x384_S128x256x384_S128x256x256_2_2_1_1_0_0 : DotDims S128x256x384 S128x256x384 S128x256x256 where
  lhsContracting := [2]
  rhsContracting := [2]
  lhsNonContracting := [1]
  rhsNonContracting := [1]
  lhsBatch := [0]
  rhsBatch := [0]
  wf := dot_S128x256x384_S128x256x384_S128x256x256_2_2_1_1_0_0_wf
def dot_S128x256x256_S128x256x384_S128x256x384_2_1_1_2_0_0 : DotDims S128x256x256 S128x256x384 S128x256x384 where
  lhsContracting := [2]
  rhsContracting := [1]
  lhsNonContracting := [1]
  rhsNonContracting := [2]
  lhsBatch := [0]
  rhsBatch := [0]
  wf := dot_S128x256x256_S128x256x384_S128x256x384_2_1_1_2_0_0_wf

class Facts : Prop extends Facts₀ where

variable [Facts]
-- ==== Proof.LibStackReduce.lean ====
/-
  A stack of matrices read one coordinate at a time: one-axis sums and maxima on the extended reals.

  General in every extent and in the float format. An index of a rank-3 stack `[T, B, C]` is `ix3 p u w` (member, row,
  column). Reducing along the LAST axis at `(p, u)` ranges over the columns of row `u` of member `p`; along the MIDDLE axis
  at `(p, w)` over the rows of column `w`; reducing a rank-2 array `[T, B]` along its second axis at `p` over row `p`'s
  entries. `lift_last` / `lift_mid` / `lift_row` say which source index lies over a result index (for any one-axis reduction's
  own `Shape.Reduces.lift`, a kernel's or a host program's); `sum_last` / `sum_mid` / `sum_row` read a kernel's
  `vector.multi_reduction <add>` as a `∑` over that axis's coordinate, `max_last` / `max_mid` a `<maximumf>` one as the fold of
  `max` from the accumulator's value. Apply them in term mode with every argument explicit
  (`refine (sum_last x acc h hφ hacc p u).trans ?_`): the evidence that the accumulator is the neutral element type-checks
  only after unfolding, so `rw` and `simp` do not find the pattern in a printed term.
-/
import Idealize.ShloMosaic.Lib.ValueIdx
import Idealize.ShloMosaic.Lib.Pipeline.Value
import Idealize.ShloMosaic.PureOps.Ideal.Laws

noncomputable section

namespace Cert.StackReduce

open Idealize.ShloMosaic Idealize.ShloMosaic.ValueIdx

section reductions

variable {φ : FTy} {T B C : ℕ}

/-- The source index over `(p, u)` with `k` on the last axis. -/
theorem lift_last (h : (⟨3, ![T, B, C]⟩ : Shape).Reduces [(2 : Fin 3)] ⟨2, ![T, B]⟩) (p : Fin T) (u : Fin B) (k : Fin C) :
    h.lift (ix2 p u) k = ix3 p u k :=
  funext fun c => Fin.ext (by match c with | ⟨0, _⟩ => rfl | ⟨1, _⟩ => rfl | ⟨2, _⟩ => rfl)

/-- The source index over `(p, w)` with `k` on the middle axis. -/
theorem lift_mid (h : (⟨3, ![T, B, C]⟩ : Shape).Reduces [(1 : Fin 3)] ⟨2, ![T, C]⟩) (p : Fin T) (w : Fin C) (k : Fin B) :
    h.lift (ix2 p w) k = ix3 p k w :=
  funext fun c => Fin.ext (by match c with | ⟨0, _⟩ => rfl | ⟨1, _⟩ => rfl | ⟨2, _⟩ => rfl)

/-- The source index over row `p` with `k` on the second axis. -/
theorem lift_row (h : (⟨2, ![T, B]⟩ : Shape).Reduces [(1 : Fin 2)] ⟨1, ![T]⟩) (p : Fin T) (k : Fin B) :
    h.lift (ix1 p) k = ix2 p k :=
  funext fun c => Fin.ext (by match c with | ⟨0, _⟩ => rfl | ⟨1, _⟩ => rfl)

theorem sum_last (x : FVec Ideal ⟨3, ![T, B, C]⟩ φ) (acc : BitVec φ.bits)
    (h : (⟨3, ![T, B, C]⟩ : Shape).Reduces [(2 : Fin 3)] ⟨2, ![T, B]⟩) (hφ : FKind.Formats φ)
    (hacc : acc = FKind.add.neutral φ hφ) (p : Fin T) (u : Fin B) :
    multiReduction .add [(2 : Fin 3)] ⟨2, ![T, B]⟩ x acc h hφ hacc (ix2 p u) = ∑ w : Fin C, x (ix3 p u w) :=
  (Ideal.multiReduction_add_single x acc h hφ hacc (ix2 p u)).trans
    (Finset.sum_congr rfl fun k _ => congrArg x (lift_last h p u k))

theorem sum_mid (x : FVec Ideal ⟨3, ![T, B, C]⟩ φ) (acc : BitVec φ.bits)
    (h : (⟨3, ![T, B, C]⟩ : Shape).Reduces [(1 : Fin 3)] ⟨2, ![T, C]⟩) (hφ : FKind.Formats φ)
    (hacc : acc = FKind.add.neutral φ hφ) (p : Fin T) (w : Fin C) :
    multiReduction .add [(1 : Fin 3)] ⟨2, ![T, C]⟩ x acc h hφ hacc (ix2 p w) = ∑ u : Fin B, x (ix3 p u w) :=
  (Ideal.multiReduction_add_single x acc h hφ hacc (ix2 p w)).trans
    (Finset.sum_congr rfl fun k _ => congrArg x (lift_mid h p w k))

theorem sum_row (x : FVec Ideal ⟨2, ![T, B]⟩ φ) (acc : BitVec φ.bits)
    (h : (⟨2, ![T, B]⟩ : Shape).Reduces [(1 : Fin 2)] ⟨1, ![T]⟩) (hφ : FKind.Formats φ)
    (hacc : acc = FKind.add.neutral φ hφ) (p : Fin T) :
    multiReduction .add [(1 : Fin 2)] ⟨1, ![T]⟩ x acc h hφ hacc (ix1 p) = ∑ u : Fin B, x (ix2 p u) :=
  (Ideal.multiReduction_add_single x acc h hφ hacc (ix1 p)).trans
    (Finset.sum_congr rfl fun k _ => congrArg x (lift_row h p k))

theorem max_last (x : FVec Ideal ⟨3, ![T, B, C]⟩ φ) (acc : BitVec φ.bits)
    (h : (⟨3, ![T, B, C]⟩ : Shape).Reduces [(2 : Fin 3)] ⟨2, ![T, B]⟩) (hφ : FKind.Formats φ)
    (hacc : acc = FKind.maximumf.neutral φ hφ) (p : Fin T) (u : Fin B) :
    multiReduction .maximumf [(2 : Fin 3)] ⟨2, ![T, B]⟩ x acc h hφ hacc (ix2 p u)
      = (Finset.univ : Finset (Fin C)).fold max (Ideal.ofBits φ acc) (fun w => x (ix3 p u w)) :=
  (Ideal.multiReduction_maximumf_single x acc h hφ hacc (ix2 p u)).trans
    (congrArg (fun f => (Finset.univ : Finset (Fin C)).fold max (Ideal.ofBits φ acc) f)
      (funext fun k => congrArg x (lift_last h p u k)))

theorem max_mid (x : FVec Ideal ⟨3, ![T, B, C]⟩ φ) (acc : BitVec φ.bits)
    (h : (⟨3, ![T, B, C]⟩ : Shape).Reduces [(1 : Fin 3)] ⟨2, ![T, C]⟩) (hφ : FKind.Formats φ)
    (hacc : acc = FKind.maximumf.neutral φ hφ) (p : Fin T) (w : Fin C) :
    multiReduction .maximumf [(1 : Fin 3)] ⟨2, ![T, C]⟩ x acc h hφ hacc (ix2 p w)
      = (Finset.univ : Finset (Fin B)).fold max (Ideal.ofBits φ acc) (fun u => x (ix3 p u w)) :=
  (Ideal.multiReduction_maximumf_single x acc h hφ hacc (ix2 p w)).trans
    (congrArg (fun f => (Finset.univ : Finset (Fin B)).fold max (Ideal.ofBits φ acc) f)
      (funext fun k => congrArg x (lift_mid h p w k)))

end reductions

end Cert.StackReduce

end
-- ==== Proof.TileOps.lean ====
/-
  The kernel's three batched products at an entry, on the extended reals.

  Into a zero accumulator each is, at `(p, ·, ·)`, the plain sum of products over the contracted coordinate, member `p` of
  the left operand against member `p` of the right: the scores `∑_d x[p,q,d]·y[p,a,d]`, the weighted rows
  `∑_a w[p,q,a]·v[p,a,d]`, and the weighted rows taken along the FIRST matrix axis, `∑_q w[p,q,a]·v[p,q,d]`. (The one-axis
  sums and maxima of a stack are in LibStackReduce and re-exported here.)
-/
import proofs.«104586_j69200513073212_2_alg».proof.Proof.Gen.KernelIdeal.Skeleton
import proofs.«104586_j69200513073212_2_alg».proof.Proof.LibStackReduce
import Idealize.ShloMosaic.Lib.ValueIdx
import Idealize.ShloMosaic.Lib.Pipeline.Value
import Idealize.ShloMosaic.PureOps.Ideal.Laws

noncomputable section

namespace Cert.TileOps

open Idealize.ShloMosaic Idealize.ShloMosaic.ValueIdx

export Cert.StackReduce (lift_last lift_mid lift_row sum_last sum_mid sum_row max_last max_mid)

section products

open Cert.KernelIdeal

theorem lhs_qk_0 (i : S16x256x256.Idx) (q : dot_S16x256x384_S16x256x384_S16x256x256_2_2_1_1_0_0.contr.Idx) :
    (dot_S16x256x384_S16x256x384_S16x256x256_2_2_1_1_0_0.lhsIdx i q 0).val = (i 0).val := by
  unfold DotDims.lhsIdx
  rw [dif_pos (show (0 : Fin S16x256x384.rank) ∈ dot_S16x256x384_S16x256x384_S16x256x256_2_2_1_1_0_0.lhsBatch by decide)]
  rfl
theorem lhs_qk_1 (i : S16x256x256.Idx) (q : dot_S16x256x384_S16x256x384_S16x256x256_2_2_1_1_0_0.contr.Idx) :
    (dot_S16x256x384_S16x256x384_S16x256x256_2_2_1_1_0_0.lhsIdx i q 1).val = (i 1).val := by
  unfold DotDims.lhsIdx
  rw [dif_neg (show ¬(1 : Fin S16x256x384.rank) ∈ dot_S16x256x384_S16x256x384_S16x256x256_2_2_1_1_0_0.lhsBatch by decide), dif_pos (show (1 : Fin S16x256x384.rank) ∈ dot_S16x256x384_S16x256x384_S16x256x256_2_2_1_1_0_0.lhsNonContracting by decide)]
  rfl
theorem lhs_qk_2 (i : S16x256x256.Idx) (q : dot_S16x256x384_S16x256x384_S16x256x256_2_2_1_1_0_0.contr.Idx) :
    (dot_S16x256x384_S16x256x384_S16x256x256_2_2_1_1_0_0.lhsIdx i q 2).val = (q ⟨0, by decide⟩).val :=
  dot_S16x256x384_S16x256x384_S16x256x256_2_2_1_1_0_0.lhsIdx_val_of_single rfl i q
theorem rhs_qk_0 (i : S16x256x256.Idx) (q : dot_S16x256x384_S16x256x384_S16x256x256_2_2_1_1_0_0.contr.Idx) :
    (dot_S16x256x384_S16x256x384_S16x256x256_2_2_1_1_0_0.rhsIdx i q 0).val = (i 0).val := by
  unfold DotDims.rhsIdx
  rw [dif_pos (show (0 : Fin S16x256x384.rank) ∈ dot_S16x256x384_S16x256x384_S16x256x256_2_2_1_1_0_0.rhsBatch by decide)]
  rfl
theorem rhs_qk_1 (i : S16x256x256.Idx) (q : dot_S16x256x384_S16x256x384_S16x256x256_2_2_1_1_0_0.contr.Idx) :
    (dot_S16x256x384_S16x256x384_S16x256x256_2_2_1_1_0_0.rhsIdx i q 1).val = (i 2).val := by
  unfold DotDims.rhsIdx
  rw [dif_neg (show ¬(1 : Fin S16x256x384.rank) ∈ dot_S16x256x384_S16x256x384_S16x256x256_2_2_1_1_0_0.rhsBatch by decide), dif_pos (show (1 : Fin S16x256x384.rank) ∈ dot_S16x256x384_S16x256x384_S16x256x256_2_2_1_1_0_0.rhsNonContracting by decide)]
  rfl
theorem rhs_qk_2 (i : S16x256x256.Idx) (q : dot_S16x256x384_S16x256x384_S16x256x256_2_2_1_1_0_0.contr.Idx) :
    (dot_S16x256x384_S16x256x384_S16x256x256_2_2_1_1_0_0.rhsIdx i q 2).val = (q ⟨0, by decide⟩).val :=
  dot_S16x256x384_S16x256x384_S16x256x256_2_2_1_1_0_0.rhsIdx_val_of_single rfl i q

/-- Scores: member `p`'s row `q` of the left operand against member `p`'s row `a` of the right. -/
theorem matmul_rows_rows {prec : Option ContractPrecision} (x y : FVec Ideal S16x256x384 .f32) (p : Fin 16) (q a : Fin 256) :
    matmul dot_S16x256x384_S16x256x384_S16x256x256_2_2_1_1_0_0 prec x y (constant S16x256x256 .f32 0x00000000#32) (ix3 p q a)
      = ∑ d : Fin 384, x (ix3 p q d) * y (ix3 p a d) := by
  simp only [matmul]
  rw [Ideal.matmul_constant_zero_apply,
    ← Equiv.sum_comp (contrEquiv1 dot_S16x256x384_S16x256x384_S16x256x256_2_2_1_1_0_0 384 rfl rfl).symm]
  refine Finset.sum_congr rfl fun k _ => ?_
  have hk := contrEquiv1_symm_val dot_S16x256x384_S16x256x384_S16x256x256_2_2_1_1_0_0 384 rfl rfl k
  have el : dot_S16x256x384_S16x256x384_S16x256x256_2_2_1_1_0_0.lhsIdx (ix3 p q a) ((contrEquiv1 dot_S16x256x384_S16x256x384_S16x256x256_2_2_1_1_0_0 384 rfl rfl).symm k) = ix3 p q k :=
    funext fun c => Fin.ext (by
      match c with
      | ⟨0, _⟩ => exact lhs_qk_0 _ _
      | ⟨1, _⟩ => exact lhs_qk_1 _ _
      | ⟨2, _⟩ => exact (lhs_qk_2 _ _).trans hk)
  have er : dot_S16x256x384_S16x256x384_S16x256x256_2_2_1_1_0_0.rhsIdx (ix3 p q a) ((contrEquiv1 dot_S16x256x384_S16x256x384_S16x256x256_2_2_1_1_0_0 384 rfl rfl).symm k) = ix3 p a k :=
    funext fun c => Fin.ext (by
      match c with
      | ⟨0, _⟩ => exact rhs_qk_0 _ _
      | ⟨1, _⟩ => exact rhs_qk_1 _ _
      | ⟨2, _⟩ => exact (rhs_qk_2 _ _).trans hk)
  rw [el, er]

theorem lhs_wv_0 (i : S16x256x384.Idx) (q : dot_S16x256x256_S16x256x384_S16x256x384_2_1_1_2_0_0.contr.Idx) :
    (dot_S16x256x256_S16x256x384_S16x256x384_2_1_1_2_0_0.lhsIdx i q 0).val = (i 0).val := by
  unfold DotDims.lhsIdx
  rw [dif_pos (show (0 : Fin S16x256x256.rank) ∈ dot_S16x256x256_S16x256x384_S16x256x384_2_1_1_2_0_0.lhsBatch by decide)]
  rfl
theorem lhs_wv_1 (i : S16x256x384.Idx) (q : dot_S16x256x256_S16x256x384_S16x256x384_2_1_1_2_0_0.contr.Idx) :
    (dot_S16x256x256_S16x256x384_S16x256x384_2_1_1_2_0_0.lhsIdx i q 1).val = (i 1).val := by
  unfold DotDims.lhsIdx
  rw [dif_neg (show ¬(1 : Fin S16x256x256.rank) ∈ dot_S16x256x256_S16x256x384_S16x256x384_2_1_1_2_0_0.lhsBatch by decide), dif_pos (show (1 : Fin S16x256x256.rank) ∈ dot_S16x256x256_S16x256x384_S16x256x384_2_1_1_2_0_0.lhsNonContracting by decide)]
  rfl
theorem lhs_wv_2 (i : S16x256x384.Idx) (q : dot_S16x256x256_S16x256x384_S16x256x384_2_1_1_2_0_0.contr.Idx) :
    (dot_S16x256x256_S16x256x384_S16x256x384_2_1_1_2_0_0.lhsIdx i q 2).val = (q ⟨0, by decide⟩).val :=
  dot_S16x256x256_S16x256x384_S16x256x384_2_1_1_2_0_0.lhsIdx_val_of_single rfl i q
theorem rhs_wv_0 (i : S16x256x384.Idx) (q : dot_S16x256x256_S16x256x384_S16x256x384_2_1_1_2_0_0.contr.Idx) :
    (dot_S16x256x256_S16x256x384_S16x256x384_2_1_1_2_0_0.rhsIdx i q 0).val = (i 0).val := by
  unfold DotDims.rhsIdx
  rw [dif_pos (show (0 : Fin S16x256x384.rank) ∈ dot_S16x256x256_S16x256x384_S16x256x384_2_1_1_2_0_0.rhsBatch by decide)]
  rfl
theorem rhs_wv_1 (i : S16x256x384.Idx) (q : dot_S16x256x256_S16x256x384_S16x256x384_2_1_1_2_0_0.contr.Idx) :
    (dot_S16x256x256_S16x256x384_S16x256x384_2_1_1_2_0_0.rhsIdx i q 1).val = (q ⟨0, by decide⟩).val :=
  dot_S16x256x256_S16x256x384_S16x256x384_2_1_1_2_0_0.rhsIdx_val_of_single rfl i q
theorem rhs_wv_2 (i : S16x256x384.Idx) (q : dot_S16x256x256_S16x256x384_S16x256x384_2_1_1_2_0_0.contr.Idx) :
    (dot_S16x256x256_S16x256x384_S16x256x384_2_1_1_2_0_0.rhsIdx i q 2).val = (i 2).val := by
  unfold DotDims.rhsIdx
  rw [dif_neg (show ¬(2 : Fin S16x256x384.rank) ∈ dot_S16x256x256_S16x256x384_S16x256x384_2_1_1_2_0_0.rhsBatch by decide), dif_pos (show (2 : Fin S16x256x384.rank) ∈ dot_S16x256x256_S16x256x384_S16x256x384_2_1_1_2_0_0.rhsNonContracting by decide)]
  rfl

/-- Weighted rows: `∑_a w[p,q,a] · v[p,a,d]`. -/
theorem matmul_weights_rows {φ₁ φ₂ : FTy} (w : FVec Ideal S16x256x256 φ₁) (v : FVec Ideal S16x256x384 φ₂) (p : Fin 16) (q : Fin 256) (d : Fin 384) :
    matmul dot_S16x256x256_S16x256x384_S16x256x384_2_1_1_2_0_0 none w v (constant S16x256x384 .f32 0x00000000#32) (ix3 p q d)
      = ∑ a : Fin 256, w (ix3 p q a) * v (ix3 p a d) := by
  simp only [matmul]
  rw [Ideal.matmul_constant_zero_apply,
    ← Equiv.sum_comp (contrEquiv1 dot_S16x256x256_S16x256x384_S16x256x384_2_1_1_2_0_0 256 rfl rfl).symm]
  refine Finset.sum_congr rfl fun k _ => ?_
  have hk := contrEquiv1_symm_val dot_S16x256x256_S16x256x384_S16x256x384_2_1_1_2_0_0 256 rfl rfl k
  have el : dot_S16x256x256_S16x256x384_S16x256x384_2_1_1_2_0_0.lhsIdx (ix3 p q d) ((contrEquiv1 dot_S16x256x256_S16x256x384_S16x256x384_2_1_1_2_0_0 256 rfl rfl).symm k) = ix3 p q k :=
    funext fun c => Fin.ext (by
      match c with
      | ⟨0, _⟩ => exact lhs_wv_0 _ _
      | ⟨1, _⟩ => exact lhs_wv_1 _ _
      | ⟨2, _⟩ => exact (lhs_wv_2 _ _).trans hk)
  have er : dot_S16x256x256_S16x256x384_S16x256x384_2_1_1_2_0_0.rhsIdx (ix3 p q d) ((contrEquiv1 dot_S16x256x256_S16x256x384_S16x256x384_2_1_1_2_0_0 256 rfl rfl).symm k) = ix3 p k d :=
    funext fun c => Fin.ext (by
      match c with
      | ⟨0, _⟩ => exact rhs_wv_0 _ _
      | ⟨1, _⟩ => exact (rhs_wv_1 _ _).trans hk
      | ⟨2, _⟩ => exact rhs_wv_2 _ _)
  rw [el, er]

theorem lhs_wtv_0 (i : S16x256x384.Idx) (q : dot_S16x256x256_S16x256x384_S16x256x384_1_1_2_2_0_0.contr.Idx) :
    (dot_S16x256x256_S16x256x384_S16x256x384_1_1_2_2_0_0.lhsIdx i q 0).val = (i 0).val := by
  unfold DotDims.lhsIdx
  rw [dif_pos (show (0 : Fin S16x256x256.rank) ∈ dot_S16x256x256_S16x256x384_S16x256x384_1_1_2_2_0_0.lhsBatch by decide)]
  rfl
theorem lhs_wtv_1 (i : S16x256x384.Idx) (q : dot_S16x256x256_S16x256x384_S16x256x384_1_1_2_2_0_0.contr.Idx) :
    (dot_S16x256x256_S16x256x384_S16x256x384_1_1_2_2_0_0.lhsIdx i q 1).val = (q ⟨0, by decide⟩).val :=
  dot_S16x256x256_S16x256x384_S16x256x384_1_1_2_2_0_0.lhsIdx_val_of_single rfl i q
theorem lhs_wtv_2 (i : S16x256x384.Idx) (q : dot_S16x256x256_S16x256x384_S16x256x384_1_1_2_2_0_0.contr.Idx) :
    (dot_S16x256x256_S16x256x384_S16x256x384_1_1_2_2_0_0.lhsIdx i q 2).val = (i 1).val := by
  unfold DotDims.lhsIdx
  rw [dif_neg (show ¬(2 : Fin S16x256x256.rank) ∈ dot_S16x256x256_S16x256x384_S16x256x384_1_1_2_2_0_0.lhsBatch by decide), dif_pos (show (2 : Fin S16x256x256.rank) ∈ dot_S16x256x256_S16x256x384_S16x256x384_1_1_2_2_0_0.lhsNonContracting by decide)]
  rfl
theorem rhs_wtv_0 (i : S16x256x384.Idx) (q : dot_S16x256x256_S16x256x384_S16x256x384_1_1_2_2_0_0.contr.Idx) :
    (dot_S16x256x256_S16x256x384_S16x256x384_1_1_2_2_0_0.rhsIdx i q 0).val = (i 0).val := by
  unfold DotDims.rhsIdx
  rw [dif_pos (show (0 : Fin S16x256x384.rank) ∈ dot_S16x256x256_S16x256x384_S16x256x384_1_1_2_2_0_0.rhsBatch by decide)]
  rfl
theorem rhs_wtv_1 (i : S16x256x384.Idx) (q : dot_S16x256x256_S16x256x384_S16x256x384_1_1_2_2_0_0.contr.Idx) :
    (dot_S16x256x256_S16x256x384_S16x256x384_1_1_2_2_0_0.rhsIdx i q 1).val = (q ⟨0, by decide⟩).val :=
  dot_S16x256x256_S16x256x384_S16x256x384_1_1_2_2_0_0.rhsIdx_val_of_single rfl i q
theorem rhs_wtv_2 (i : S16x256x384.Idx) (q : dot_S16x256x256_S16x256x384_S16x256x384_1_1_2_2_0_0.contr.Idx) :
    (dot_S16x256x256_S16x256x384_S16x256x384_1_1_2_2_0_0.rhsIdx i q 2).val = (i 2).val := by
  unfold DotDims.rhsIdx
  rw [dif_neg (show ¬(2 : Fin S16x256x384.rank) ∈ dot_S16x256x256_S16x256x384_S16x256x384_1_1_2_2_0_0.rhsBatch by decide), dif_pos (show (2 : Fin S16x256x384.rank) ∈ dot_S16x256x256_S16x256x384_S16x256x384_1_1_2_2_0_0.rhsNonContracting by decide)]
  rfl

/-- Weighted rows along the first matrix axis: `∑_q w[p,q,a] · v[p,q,d]`. -/
theorem matmul_weightsT_rows {φ₁ φ₂ : FTy} (w : FVec Ideal S16x256x256 φ₁) (v : FVec Ideal S16x256x384 φ₂) (p : Fin 16) (a : Fin 256) (d : Fin 384) :
    matmul dot_S16x256x256_S16x256x384_S16x256x384_1_1_2_2_0_0 none w v (constant S16x256x384 .f32 0x00000000#32) (ix3 p a d)
      = ∑ q : Fin 256, w (ix3 p q a) * v (ix3 p q d) := by
  simp only [matmul]
  rw [Ideal.matmul_constant_zero_apply,
    ← Equiv.sum_comp (contrEquiv1 dot_S16x256x256_S16x256x384_S16x256x384_1_1_2_2_0_0 256 rfl rfl).symm]
  refine Finset.sum_congr rfl fun k _ => ?_
  have hk := contrEquiv1_symm_val dot_S16x256x256_S16x256x384_S16x256x384_1_1_2_2_0_0 256 rfl rfl k
  have el : dot_S16x256x256_S16x256x384_S16x256x384_1_1_2_2_0_0.lhsIdx (ix3 p a d) ((contrEquiv1 dot_S16x256x256_S16x256x384_S16x256x384_1_1_2_2_0_0 256 rfl rfl).symm k) = ix3 p k a :=
    funext fun c => Fin.ext (by
      match c with
      | ⟨0, _⟩ => exact lhs_wtv_0 _ _
      | ⟨1, _⟩ => exact (lhs_wtv_1 _ _).trans hk
      | ⟨2, _⟩ => exact lhs_wtv_2 _ _)
  have er : dot_S16x256x256_S16x256x384_S16x256x384_1_1_2_2_0_0.rhsIdx (ix3 p a d) ((contrEquiv1 dot_S16x256x256_S16x256x384_S16x256x384_1_1_2_2_0_0 256 rfl rfl).symm k) = ix3 p k d :=
    funext fun c => Fin.ext (by
      match c with
      | ⟨0, _⟩ => exact rhs_wtv_0 _ _
      | ⟨1, _⟩ => exact (rhs_wtv_1 _ _).trans hk
      | ⟨2, _⟩ => exact rhs_wtv_2 _ _)
  rw [el, er]

end products

end Cert.TileOps

end
-- ==== Proof.LibAxisMoves.lean ====
/-
  Axis moves of a row tile, read at coordinates.

  Layout operations that a row-tiled kernel meets between its matmuls, each read at an index written `ixN …`
  (Lib/ValueIdx.lean), so that a lemma applies to a printed operation by unification. Every extent is arbitrary.
  • A [T,B] tile viewed as a column stack [T,B,1] or a row stack [T,1,B] (`x[:, :, None]`, `x[:, None, :]`):
    `cast_column`, `cast_row`.
  • A [T,B,1] column stack repeated along its last axis, a [T,1,C] row stack repeated along its middle axis, both to
    [T,B,C] — the two halves of an outer combination `f(x[:, :, None], y[:, None, :])`: `repeat_column`, `repeat_row`.
  • The [T,B,C] grid flattened over its last two axes to [T,N], N = B·C (`reshape(T, B*C)`): `flatten_last2`; position
    `k = u·C + w` of a row is the grid's entry (u, w).
  • The keepdims forms of a lane reduction: a [T] vector viewed as a [T,1] column, and a [T,1] column repeated across C
    columns (`x.sum(axis=1, keepdims=True)` broadcast against [T,C]): `cast_keepdim`, `repeat_keepdim`.
-/
import Idealize.ShloMosaic.Lib.Pipeline.Value
import Idealize.ShloMosaic.Lib.ValueIdx

namespace Cert.AxisMoves

open Idealize.ShloMosaic Idealize.ShloMosaic.ValueIdx

variable {α : Type}

/-- [T,B] viewed as [T,B,1]: the column entry (p, u, 0) is the tile's (p, u). -/
theorem cast_column {T B : ℕ} (v : (⟨2, ![T, B]⟩ : Shape).Idx → α)
    (h : (⟨2, ![T, B]⟩ : Shape).ShapeCasts ⟨3, ![T, B, 1]⟩) (p : Fin T) (u : Fin B) (z : Fin 1) :
    shapeCast ⟨3, ![T, B, 1]⟩ v h (ix3 p u z) = v (ix2 p u) := by
  refine shapeCast_apply v h (ix3 p u z) (ix2 p u) ?_
  rw [Shape.rowMajor_val_two, Shape.rowMajor_val_three]
  show p.val * B + u.val = (p.val * B + u.val) * 1 + z.val
  have := z.isLt; omega

/-- [T,B] viewed as [T,1,B]: the row entry (p, 0, w) is the tile's (p, w). -/
theorem cast_row {T B : ℕ} (v : (⟨2, ![T, B]⟩ : Shape).Idx → α)
    (h : (⟨2, ![T, B]⟩ : Shape).ShapeCasts ⟨3, ![T, 1, B]⟩) (p : Fin T) (z : Fin 1) (w : Fin B) :
    shapeCast ⟨3, ![T, 1, B]⟩ v h (ix3 p z w) = v (ix2 p w) := by
  refine shapeCast_apply v h (ix3 p z w) (ix2 p w) ?_
  rw [Shape.rowMajor_val_two, Shape.rowMajor_val_three]
  show p.val * B + w.val = (p.val * 1 + z.val) * B + w.val
  have hz : z.val = 0 := by have := z.isLt; omega
  rw [hz, Nat.mul_one, Nat.add_zero]

/-- A [T,B,1] column stack repeated along the last axis: (p, u, w) reads (p, u, 0). -/
theorem repeat_column {T B C : ℕ} (v : (⟨3, ![T, B, 1]⟩ : Shape).Idx → α)
    (h : (⟨3, ![T, B, 1]⟩ : Shape).Broadcasts ⟨3, ![T, B, C]⟩) (p : Fin T) (u : Fin B) (w : Fin C) :
    broadcastTo ⟨3, ![T, B, C]⟩ v h (ix3 p u w) = v (ix3 p u (0 : Fin 1)) := by
  refine broadcastTo_apply v h (ix3 p u w) (ix3 p u (0 : Fin 1)) fun ax => ?_
  match ax with
  | ⟨0, _⟩ =>
    show p.val = if T = 1 then 0 else p.val
    split
    · have := p.isLt; omega
    · rfl
  | ⟨1, _⟩ =>
    show u.val = if B = 1 then 0 else u.val
    split
    · have := u.isLt; omega
    · rfl
  | ⟨2, _⟩ => rfl

/-- A [T,1,C] row stack repeated along the middle axis: (p, u, w) reads (p, 0, w). -/
theorem repeat_row {T B C : ℕ} (v : (⟨3, ![T, 1, C]⟩ : Shape).Idx → α)
    (h : (⟨3, ![T, 1, C]⟩ : Shape).Broadcasts ⟨3, ![T, B, C]⟩) (p : Fin T) (u : Fin B) (w : Fin C) :
    broadcastTo ⟨3, ![T, B, C]⟩ v h (ix3 p u w) = v (ix3 p (0 : Fin 1) w) := by
  refine broadcastTo_apply v h (ix3 p u w) (ix3 p (0 : Fin 1) w) fun ax => ?_
  match ax with
  | ⟨0, _⟩ =>
    show p.val = if T = 1 then 0 else p.val
    split
    · have := p.isLt; omega
    · rfl
  | ⟨1, _⟩ => rfl
  | ⟨2, _⟩ =>
    show w.val = if C = 1 then 0 else w.val
    split
    · have := w.isLt; omega
    · rfl

/-- The [T,B,C] grid flattened row-major over its last two axes to [T,N], N = B·C: position k = u·C + w of row p is
    the grid's entry (p, u, w). -/
theorem flatten_last2 {T B C N : ℕ} (hN : B * C = N) (v : (⟨3, ![T, B, C]⟩ : Shape).Idx → α)
    (h : (⟨3, ![T, B, C]⟩ : Shape).ShapeCasts ⟨2, ![T, N]⟩) (p : Fin T) (k : Fin N)
    (u : Fin B) (w : Fin C) (hk : k.val = u.val * C + w.val) :
    shapeCast ⟨2, ![T, N]⟩ v h (ix2 p k) = v (ix3 p u w) := by
  refine shapeCast_apply v h (ix2 p k) (ix3 p u w) ?_
  rw [Shape.rowMajor_val_two, Shape.rowMajor_val_three]
  show (p.val * B + u.val) * C + w.val = p.val * N + k.val
  rw [hk, ← hN, Nat.add_mul, Nat.mul_assoc, Nat.add_assoc]

/-- A [T] vector viewed as a [T,1] column. -/
theorem cast_keepdim {T : ℕ} (v : (⟨1, ![T]⟩ : Shape).Idx → α)
    (h : (⟨1, ![T]⟩ : Shape).ShapeCasts ⟨2, ![T, 1]⟩) (p : Fin T) (z : Fin 1) :
    shapeCast ⟨2, ![T, 1]⟩ v h (ix2 p z) = v (ix1 p) := by
  refine shapeCast_apply v h (ix2 p z) (ix1 p) ?_
  rw [Shape.rowMajor_val_one, Shape.rowMajor_val_two]
  show p.val = p.val * 1 + z.val
  have := z.isLt; omega

/-- A [T,1] column repeated across C columns: (p, b) reads (p, 0). -/
theorem repeat_keepdim {T C : ℕ} (v : (⟨2, ![T, 1]⟩ : Shape).Idx → α)
    (h : (⟨2, ![T, 1]⟩ : Shape).Broadcasts ⟨2, ![T, C]⟩) (p : Fin T) (b : Fin C) :
    broadcastTo ⟨2, ![T, C]⟩ v h (ix2 p b) = v (ix2 p (0 : Fin 1)) := by
  refine broadcastTo_apply v h (ix2 p b) (ix2 p (0 : Fin 1)) fun ax => ?_
  match ax with
  | ⟨0, _⟩ =>
    show p.val = if T = 1 then 0 else p.val
    split
    · have := p.isLt; omega
    · rfl
  | ⟨1, _⟩ => rfl

end Cert.AxisMoves
-- ==== Proof.Spec.lean ====
/-
  Two sentences attend to each other: the mathematics of ONE batch element, on the extended reals.

  A batch element is a question `Q` and an answer `A`, each 256 tokens of 384 features, with a 0/1 token mask each.
  The score of question token `q` against answer token `a` is the inner product of their features. Each question
  token takes a softmax over the answer tokens' scores and collects the answer features with those weights
  (`attQ`); each answer token does the same over the question tokens (`attA`). A token's own features
  and its collected features, 768 numbers, are divided by their Euclidean norm (not below `1e-12`); the
  normalised tokens are averaged under the mask (the count not below `1e-9`), and the mean is normalised once
  more: `pooled`.

  Two arrangements of the pooling are stated. In one the 768 squares are summed as two sums of 384, and the
  mask and the reciprocal norm are multiplied into ONE weight per token before the features are summed
  (`pooled`); in the other the concatenated token is divided by its norm, then multiplied by the mask, and every sum
  starts from the literal zero (`pooledR`). They agree on all extended reals: a sum over 768 = 384 + 384 indices
  splits, zero is neutral, and for a divisor `y ≠ 0` the quotient is the product with `y⁻¹`, so
  `(x / y) · m = x · (m · (1 / y))` by associativity and commutativity of the product alone. The divisor here is a
  maximum with the positive literal `1e-12`, hence not zero. No finiteness of the data is used.
-/
import Idealize.ShloMosaic.PureOps.Ideal
import Idealize.ShloMosaic.PureOps.Ideal.Laws
import Idealize.ShloMosaic.Lib.IdealHost

noncomputable section

namespace Cert.CrossAttend

open Idealize.ShloMosaic

/-- The f32 literals of both programs: −∞, 1e-12 (rounded), 1e-9 (rounded), kept as their words. -/
abbrev negInf : EReal := Ideal.ofBits .f32 0xFF800000#32
abbrev epsN : EReal := Ideal.ofBits .f32 0x2B8CBCCC#32
abbrev epsP : EReal := Ideal.ofBits .f32 0x3089705F#32

/-- A sentence: 256 tokens of 384 features. -/
abbrev Tok := Fin 256 → Fin 384 → EReal

/-- The score of question token `q` against answer token `a`. -/
def score (Q A : Tok) (q a : Fin 256) : EReal := ∑ d : Fin 384, Q q d * A a d

/-- The largest of 256 numbers, from −∞. -/
def maxOver (f : Fin 256 → EReal) : EReal :=
  max negInf ((Finset.univ : Finset (Fin 256)).fold max negInf f)

/-- `exp (f k − max f)`. -/
def expOver (f : Fin 256 → EReal) (k : Fin 256) : EReal := Ideal.exp (f k - maxOver f)

/-- The softmax weight of entry `k`. -/
def softmax (f : Fin 256 → EReal) (k : Fin 256) : EReal :=
  Ideal.div (expOver f k) (∑ k' : Fin 256, expOver f k')

/-- What question token `q` collects from the answer. -/
def attQ (Q A : Tok) (q : Fin 256) (d : Fin 384) : EReal :=
  ∑ a : Fin 256, softmax (fun a' => score Q A q a') a * A a d

/-- What answer token `a` collects from the question. -/
def attA (Q A : Tok) (a : Fin 256) (d : Fin 384) : EReal :=
  ∑ q : Fin 256, softmax (fun q' => score Q A q' a) q * Q q d

/-- Two rows of 384 laid end to end. -/
def cat2 (f g : Fin 384 → EReal) (j : Fin 768) : EReal :=
  if h : j.val < 384 then f ⟨j.val, h⟩ else g ⟨j.val - 384, by have := j.isLt; omega⟩

/-- A sum over the joined row is the two rows' sums. -/
theorem sum_cat2 (f g : Fin 384 → EReal) (φ : EReal → EReal) :
    ∑ j : Fin 768, φ (cat2 f g j) = (∑ d : Fin 384, φ (f d)) + ∑ d : Fin 384, φ (g d) := by
  have e1 : ∀ d : Fin 384, cat2 f g (Fin.castAdd 384 d) = f d := fun d => by
    unfold cat2
    rw [dif_pos (show (Fin.castAdd 384 d : Fin (384 + 384)).val < 384 from d.isLt)]
    try rfl
  have e2 : ∀ d : Fin 384, cat2 f g (Fin.natAdd 384 d) = g d := fun d => by
    unfold cat2
    rw [dif_neg (show ¬ (Fin.natAdd 384 d : Fin (384 + 384)).val < 384 by simp [Fin.natAdd])]
    exact congrArg g (Fin.ext (by simp [Fin.natAdd]))
  calc ∑ j : Fin 768, φ (cat2 f g j)
      = (∑ i : Fin 384, φ (cat2 f g (Fin.castAdd 384 i))) + ∑ i : Fin 384, φ (cat2 f g (Fin.natAdd 384 i)) :=
        Fin.sum_univ_add (M := EReal) (a := 384) (b := 384) fun j => φ (cat2 f g j)
    _ = _ := by simp only [e1, e2]

theorem epsN_pos : (0 : EReal) < epsN := by
  show (0 : EReal) < Ideal.ofBits .f32 0x2B8CBCCC#32
  simp [Ideal.ofBits, Ideal.ieee, -EReal.coe_mul]

/-- For a divisor that is not zero: divide then scale = scale by the reciprocal's multiple. -/
theorem div_mul_eq (x y m : EReal) (hy : y ≠ 0) :
    Ideal.div x y * m = x * (m * Ideal.div (Ideal.ofBits .f32 0x3F800000#32) y) := by
  unfold Ideal.div
  rw [if_neg hy, if_neg hy, Ideal.ofBits_one_f32, one_mul, mul_assoc, mul_comm y⁻¹ m]

section pool

variable (X Y : Tok) (m : Fin 256 → EReal)

/-- A token's norm, its own and its collected features together, not below 1e-12. -/
def tokNorm (q : Fin 256) : EReal :=
  max (Ideal.sqrt ((∑ d : Fin 384, X q d * X q d) + ∑ d : Fin 384, Y q d * Y q d)) epsN

theorem tokNorm_ne_zero (q : Fin 256) : tokNorm X Y q ≠ 0 :=
  ne_of_gt (lt_of_lt_of_le epsN_pos (le_max_right _ _))

/-- The mask times the reciprocal norm. -/
def weight (q : Fin 256) : EReal := m q * Ideal.div (Ideal.ofBits .f32 0x3F800000#32) (tokNorm X Y q)

/-- The masked mean of the normalised tokens, feature `j` of 768. -/
def mean (j : Fin 768) : EReal :=
  Ideal.div (cat2 (fun d => ∑ q : Fin 256, X q d * weight X Y m q) (fun d => ∑ q : Fin 256, Y q d * weight X Y m q) j)
    (max (∑ q : Fin 256, m q) epsP)

/-- The mean, normalised. -/
def pooled (j : Fin 768) : EReal :=
  Ideal.div (mean X Y m j) (max (Ideal.sqrt (∑ j' : Fin 768, mean X Y m j' * mean X Y m j')) epsN)

/-- The other arrangement: the 768 squares in one sum from the literal zero. -/
def tokNormR (q : Fin 256) : EReal :=
  max (Ideal.sqrt (Ideal.ofBits .f32 0x00000000#32 + ∑ j : Fin 768, cat2 (X q) (Y q) j * cat2 (X q) (Y q) j)) epsN

def meanR (j : Fin 768) : EReal :=
  Ideal.div (Ideal.ofBits .f32 0x00000000#32 + ∑ q : Fin 256, Ideal.div (cat2 (X q) (Y q) j) (tokNormR X Y q) * m q)
    (max (Ideal.ofBits .f32 0x00000000#32 + ∑ q : Fin 256, m q) epsP)

def pooledR (j : Fin 768) : EReal :=
  Ideal.div (meanR X Y m j)
    (max (Ideal.sqrt (Ideal.ofBits .f32 0x00000000#32 + ∑ j' : Fin 768, meanR X Y m j' * meanR X Y m j')) epsN)

theorem tokNormR_eq (q : Fin 256) : tokNormR X Y q = tokNorm X Y q := by
  unfold tokNormR tokNorm
  rw [Ideal.ofBits_zero_f32, zero_add, sum_cat2 (X q) (Y q) (fun x => x * x)]

theorem meanR_eq (j : Fin 768) : meanR X Y m j = mean X Y m j := by
  unfold meanR mean
  rw [Ideal.ofBits_zero_f32, zero_add, zero_add]
  refine congrArg (fun s => Ideal.div s _) ?_
  unfold cat2
  by_cases h : j.val < 384
  · simp only [dif_pos h]
    refine Finset.sum_congr rfl fun q _ => ?_
    rw [tokNormR_eq, div_mul_eq _ _ _ (tokNorm_ne_zero X Y q)]; rfl
  · simp only [dif_neg h]
    refine Finset.sum_congr rfl fun q _ => ?_
    rw [tokNormR_eq, div_mul_eq _ _ _ (tokNorm_ne_zero X Y q)]; rfl

theorem pooledR_eq : pooledR X Y m = pooled X Y m := by
  funext j
  unfold pooledR pooled
  rw [Ideal.ofBits_zero_f32, zero_add]
  simp only [meanR_eq]

end pool

end Cert.CrossAttend

end
-- ==== Proof.TileAttend.lean ====
/-
  What the kernel's body leaves in its two output blocks, entry by entry (first half: scores, the two softmaxes, what each side collects).

  The body works on a tile of 16 batch elements at once. Every operation in it acts on each batch element by itself
  (a product batched over the leading axis, a sum or a maximum along a matrix axis, pointwise arithmetic, a value of one
  row or column repeated along the other axis), so entry `(p, j)` of an output block depends only on member `p` of the
  four input blocks, and is the pooled, normalised sentence vector of that batch element (`Cert.CrossAttend.pooled`):
  for the first output of the question with what it collected from the answer under the question's mask, for the second
  of the answer with what it collected from the question under the answer's mask.

  The body's text is first regrouped into a few named stages (softmax along the last or along the middle axis; a
  token's norm, its weight, a weighted sum over tokens, the masked mean, the normalised mean); that the printed payloads
  are these stages is true by unfolding. Each stage is then read at an index.
-/
import proofs.«104586_j69200513073212_2_alg».proof.Proof.Gen.KernelIdeal.Skeleton
import proofs.«104586_j69200513073212_2_alg».proof.Proof.TileOps
import proofs.«104586_j69200513073212_2_alg».proof.Proof.LibAxisMoves
import proofs.«104586_j69200513073212_2_alg».proof.Proof.Spec

noncomputable section

namespace Cert.KernelIdeal.TileValue

open Cert.KernelIdeal Cert.KernelIdeal.Gen Cert.TileOps Cert.AxisMoves Cert.CrossAttend
open Idealize.ShloMosaic Idealize.ShloMosaic.ValueIdx

/-- Member `p` of a tile of sentences. -/
abbrev tok (X : FVec Ideal S16x256x384 .f32) (p : Fin 16) : Tok := fun q d => X (ix3 p q d)

/-- Member `p` of a tile of masks (already converted to floats). -/
abbrev row (M : FVec Ideal S16x256 .f32) (p : Fin 16) : Fin 256 → EReal := fun q => M (ix2 p q)

/-! ## Softmax along the last axis -/

def maxLastV (S : FVec Ideal S16x256x256 .f32) : FVec Ideal S16x256 .f32 :=
  maximumf (broadcast S16x256 (Scalar.ofBits .f32 0xFF800000#32))
    (multiReduction .maximumf [2] S16x256 S 0xFF800000#32 reduces_S16x256x256_S16x256 (.inl rfl) rfl)

def expLastV (S : FVec Ideal S16x256x256 .f32) : FVec Ideal S16x256x256 .f32 :=
  exp (subf S (broadcastTo S16x256x256 (shapeCast S16x256x1 (maxLastV S) shapeCasts_S16x256_S16x256x1) broadcasts_S16x256x1_S16x256x256))

def softLastV (S : FVec Ideal S16x256x256 .f32) : FVec Ideal S16x256x256 .f32 :=
  divf (expLastV S) (broadcastTo S16x256x256 (shapeCast S16x256x1
    (multiReduction .add [2] S16x256 (expLastV S) 0x00000000#32 reduces_S16x256x256_S16x256 (.inl rfl) rfl)
    shapeCasts_S16x256_S16x256x1) broadcasts_S16x256x1_S16x256x256)

theorem maxLastV_apply (S : FVec Ideal S16x256x256 .f32) (p : Fin 16) (q : Fin 256) :
    maxLastV S (ix2 p q) = maxOver (fun a => S (ix3 p q a)) := by
  unfold maxLastV maxOver
  rw [maximumf_apply, broadcast_apply, Ideal.ofBits_def]
  exact congrArg (max negInf) (max_last S 0xFF800000#32 reduces_S16x256x256_S16x256 (.inl rfl) rfl p q)

theorem expLastV_apply (S : FVec Ideal S16x256x256 .f32) (p : Fin 16) (q a : Fin 256) :
    expLastV S (ix3 p q a) = expOver (fun a' => S (ix3 p q a')) a := by
  unfold expLastV expOver
  simp only [exp, subf_apply, repeat_column, cast_column, maxLastV_apply, Ideal.exp_def]

theorem softLastV_apply (S : FVec Ideal S16x256x256 .f32) (p : Fin 16) (q a : Fin 256) :
    softLastV S (ix3 p q a) = softmax (fun a' => S (ix3 p q a')) a := by
  unfold softLastV softmax
  simp only [divf_apply, repeat_column, cast_column, expLastV_apply]
  refine congrArg (Ideal.div _) ?_
  refine (sum_last (expLastV S) 0x00000000#32 reduces_S16x256x256_S16x256 (.inl rfl) rfl p q).trans ?_
  simp only [expLastV_apply]

/-! ## Softmax along the middle axis -/

def maxMidV (S : FVec Ideal S16x256x256 .f32) : FVec Ideal S16x256 .f32 :=
  maximumf (broadcast S16x256 (Scalar.ofBits .f32 0xFF800000#32))
    (multiReduction .maximumf [1] S16x256 S 0xFF800000#32 reduces_S16x256x256_S16x256_2 (.inl rfl) rfl)

def expMidV (S : FVec Ideal S16x256x256 .f32) : FVec Ideal S16x256x256 .f32 :=
  exp (subf S (broadcastTo S16x256x256 (shapeCast S16x1x256 (maxMidV S) shapeCasts_S16x256_S16x1x256) broadcasts_S16x1x256_S16x256x256))

def softMidV (S : FVec Ideal S16x256x256 .f32) : FVec Ideal S16x256x256 .f32 :=
  divf (expMidV S) (broadcastTo S16x256x256 (shapeCast S16x1x256
    (multiReduction .add [1] S16x256 (expMidV S) 0x00000000#32 reduces_S16x256x256_S16x256_2 (.inl rfl) rfl)
    shapeCasts_S16x256_S16x1x256) broadcasts_S16x1x256_S16x256x256)

theorem maxMidV_apply (S : FVec Ideal S16x256x256 .f32) (p : Fin 16) (a : Fin 256) :
    maxMidV S (ix2 p a) = maxOver (fun q => S (ix3 p q a)) := by
  unfold maxMidV maxOver
  rw [maximumf_apply, broadcast_apply, Ideal.ofBits_def]
  exact congrArg (max negInf) (max_mid S 0xFF800000#32 reduces_S16x256x256_S16x256_2 (.inl rfl) rfl p a)

theorem expMidV_apply (S : FVec Ideal S16x256x256 .f32) (p : Fin 16) (q a : Fin 256) :
    expMidV S (ix3 p q a) = expOver (fun q' => S (ix3 p q' a)) q := by
  unfold expMidV expOver
  simp only [exp, subf_apply, repeat_row, cast_row, maxMidV_apply, Ideal.exp_def]

theorem softMidV_apply (S : FVec Ideal S16x256x256 .f32) (p : Fin 16) (q a : Fin 256) :
    softMidV S (ix3 p q a) = softmax (fun q' => S (ix3 p q' a)) q := by
  unfold softMidV softmax
  simp only [divf_apply, repeat_row, cast_row, expMidV_apply]
  refine congrArg (Ideal.div _) ?_
  refine (sum_mid (expMidV S) 0x00000000#32 reduces_S16x256x256_S16x256_2 (.inl rfl) rfl p a).trans ?_
  simp only [expMidV_apply]

/-! ## Scores and what each side collects -/

theorem pay4_apply (x y : Vec Ideal S16x256x384 .f32) (p : Fin 16) (q a : Fin 256) :
    k0_pay4 x y (ix3 p q a) = score (tok x p) (tok y p) q a := by
  unfold k0_pay4 score
  exact matmul_rows_rows x y p q a

theorem pay5_eq (x y : Vec Ideal S16x256x384 .f32) :
    k0_pay5 x y = matmul dot_S16x256x256_S16x256x384_S16x256x384_2_1_1_2_0_0 none
      (truncf .bf16 (softLastV (k0_pay4 x y)) bitsLt_bf16_f32) (truncf .bf16 y bitsLt_bf16_f32)
      (constant S16x256x384 .f32 0x00000000#32) := by
  unfold k0_pay5 softLastV expLastV maxLastV
  with_reducible rfl

theorem pay5_apply (x y : Vec Ideal S16x256x384 .f32) (p : Fin 16) (q : Fin 256) (d : Fin 384) :
    k0_pay5 x y (ix3 p q d) = attQ (tok x p) (tok y p) q d := by
  rw [pay5_eq, matmul_weights_rows]
  unfold attQ
  refine Finset.sum_congr rfl fun a _ => ?_
  rw [truncf_apply, truncf_apply, softLastV_apply]
  simp only [pay4_apply]

theorem pay6_eq (x y : Vec Ideal S16x256x384 .f32) :
    k0_pay6 x y = matmul dot_S16x256x256_S16x256x384_S16x256x384_1_1_2_2_0_0 none
      (truncf .bf16 (softMidV (k0_pay4 x y)) bitsLt_bf16_f32) (truncf .bf16 x bitsLt_bf16_f32)
      (constant S16x256x384 .f32 0x00000000#32) := by
  unfold k0_pay6 softMidV expMidV maxMidV
  with_reducible rfl

theorem pay6_apply (x y : Vec Ideal S16x256x384 .f32) (p : Fin 16) (a : Fin 256) (d : Fin 384) :
    k0_pay6 x y (ix3 p a d) = attA (tok x p) (tok y p) a d := by
  rw [pay6_eq, matmul_weightsT_rows]
  unfold attA
  refine Finset.sum_congr rfl fun q _ => ?_
  rw [truncf_apply, truncf_apply, softMidV_apply]
  simp only [pay4_apply]

end Cert.KernelIdeal.TileValue

end
-- ==== Proof.TilePool.lean ====
/-
  What the kernel's body leaves in its two output blocks, entry by entry (second half: the pooling).

  With a sentence tile `X`, what its tokens collected `Y` and its mask tile `M`, the body computes per token the norm of its 768
  numbers (two sums of 384 squares), the weight `mask · (1 / max(norm, 1e-12))`, the weighted sums of `X` and of `Y` over the
  tokens laid end to end, the division by the mask's count (not below 1e-9) and the final normalisation. Entry `(p, j)` is
  `Cert.CrossAttend.pooled` of member `p`.
-/
import proofs.«104586_j69200513073212_2_alg».proof.Proof.TileAttend

noncomputable section

namespace Cert.KernelIdeal.TileValue

open Cert.KernelIdeal Cert.KernelIdeal.Gen Cert.TileOps Cert.AxisMoves Cert.CrossAttend
open Idealize.ShloMosaic Idealize.ShloMosaic.ValueIdx

/-! ## Pooling: a sentence `X`, what it collected `Y`, its mask `M` -/

def normV (X Y : FVec Ideal S16x256x384 .f32) : FVec Ideal S16x256 .f32 :=
  maximumf (sqrt (addf
      (multiReduction .add [2] S16x256 (mulf X X) 0x00000000#32 reduces_S16x256x384_S16x256 (.inl rfl) rfl)
      (multiReduction .add [2] S16x256 (mulf Y Y) 0x00000000#32 reduces_S16x256x384_S16x256 (.inl rfl) rfl)))
    (broadcast S16x256 (Scalar.ofBits .f32 0x2B8CBCCC#32))

def weightV (X Y : FVec Ideal S16x256x384 .f32) (M : FVec Ideal S16x256 .f32) : FVec Ideal S16x256 .f32 :=
  mulf M (divf (broadcast S16x256 (Scalar.ofBits .f32 0x3F800000#32)) (normV X Y))

def wsumV (Z : FVec Ideal S16x256x384 .f32) (W : FVec Ideal S16x256 .f32) : FVec Ideal S16x384 .f32 :=
  multiReduction .add [1] S16x384
    (mulf Z (broadcastTo S16x256x384 (shapeCast S16x256x1 W shapeCasts_S16x256_S16x256x1) broadcasts_S16x256x1_S16x256x384))
    0x00000000#32 reduces_S16x256x384_S16x384 (.inl rfl) rfl

def meanV (X Y : FVec Ideal S16x256x384 .f32) (M : FVec Ideal S16x256 .f32) : FVec Ideal S16x768 .f32 :=
  divf (concatenate S16x768 1 [⟨S16x384, wsumV X (weightV X Y M)⟩, ⟨S16x384, wsumV Y (weightV X Y M)⟩]
      concatenates_S16x384_S16x384_S16x768_d1)
    (broadcastTo S16x768 (maximumf
      (shapeCast S16x1 (multiReduction .add [1] S16 M 0x00000000#32 reduces_S16x256_S16 (.inl rfl) rfl) shapeCasts_S16_S16x1)
      (broadcast S16x1 (Scalar.ofBits .f32 0x3089705F#32))) broadcasts_S16x1_S16x768)

def pooledV (X Y : FVec Ideal S16x256x384 .f32) (M : FVec Ideal S16x256 .f32) : FVec Ideal S16x768 .f32 :=
  divf (meanV X Y M)
    (broadcastTo S16x768 (maximumf
      (sqrt (shapeCast S16x1 (multiReduction .add [1] S16 (mulf (meanV X Y M) (meanV X Y M)) 0x00000000#32
        reduces_S16x768_S16 (.inl rfl) rfl) shapeCasts_S16_S16x1))
      (broadcast S16x1 (Scalar.ofBits .f32 0x2B8CBCCC#32))) broadcasts_S16x1_S16x768)

/-- The first output's payload is the question's pooling. -/
theorem pay10_eq (x y : Vec Ideal S16x256x384 .f32) (mq : Vec Ideal S16x256 .i32) :
    k0_pay10 x (k0_pay2 mq) (k0_pay5 x y) (k0_pay7 x) (k0_pay8 x y) = pooledV x (k0_pay5 x y) (sitofp .f32 mq) := by
  unfold k0_pay10 k0_pay2 k0_pay7 k0_pay8 pooledV meanV wsumV weightV normV
  with_reducible rfl

/-- The second output's payload is the answer's pooling. -/
theorem pay1_eq (x y : Vec Ideal S16x256x384 .f32) (ma : Vec Ideal S16x256 .i32) :
    k0_pay1 (k0_pay3 ma) (k0_pay6 x y) (k0_pay11 y (k0_pay3 ma) (k0_pay6 x y)) (k0_pay12 y (k0_pay3 ma) (k0_pay6 x y))
      = pooledV y (k0_pay6 x y) (sitofp .f32 ma) := by
  unfold k0_pay1 k0_pay3 k0_pay11 k0_pay12 k0_pay9 pooledV meanV wsumV weightV normV
  with_reducible rfl

theorem normV_apply (X Y : FVec Ideal S16x256x384 .f32) (p : Fin 16) (q : Fin 256) :
    normV X Y (ix2 p q) = tokNorm (tok X p) (tok Y p) q := by
  unfold normV tokNorm
  simp only [maximumf_apply, sqrt, addf_apply, broadcast_apply, Ideal.sqrt_def, Ideal.ofBits_def]
  refine congrArg (fun s => max (Ideal.sqrt s) epsN) ?_
  refine congrArg₂ (· + ·)
    ((sum_last (mulf X X) 0x00000000#32 reduces_S16x256x384_S16x256 (.inl rfl) rfl p q).trans ?_)
    ((sum_last (mulf Y Y) 0x00000000#32 reduces_S16x256x384_S16x256 (.inl rfl) rfl p q).trans ?_)
  · simp only [mulf_apply]
  · simp only [mulf_apply]

theorem weightV_apply (X Y : FVec Ideal S16x256x384 .f32) (M : FVec Ideal S16x256 .f32) (p : Fin 16) (q : Fin 256) :
    weightV X Y M (ix2 p q) = weight (tok X p) (tok Y p) (row M p) q := by
  unfold weightV weight
  simp only [mulf_apply, divf_apply, broadcast_apply, normV_apply, Ideal.ofBits_def]

theorem wsumV_apply (Z : FVec Ideal S16x256x384 .f32) (W : FVec Ideal S16x256 .f32) (p : Fin 16) (d : Fin 384) :
    wsumV Z W (ix2 p d) = ∑ q : Fin 256, Z (ix3 p q d) * W (ix2 p q) := by
  unfold wsumV
  refine (sum_mid _ 0x00000000#32 reduces_S16x256x384_S16x384 (.inl rfl) rfl p d).trans ?_
  simp only [mulf_apply, repeat_column, cast_column]

theorem meanV_apply (X Y : FVec Ideal S16x256x384 .f32) (M : FVec Ideal S16x256 .f32) (p : Fin 16) (j : Fin 768) :
    meanV X Y M (ix2 p j) = mean (tok X p) (tok Y p) (row M p) j := by
  unfold meanV mean
  simp only [divf_apply, repeat_keepdim, maximumf_apply, broadcast_apply, cast_keepdim, Ideal.ofBits_def]
  refine congrArg₂ Ideal.div ?_
    (congrArg (fun s => max s epsP) (sum_row M 0x00000000#32 reduces_S16x256_S16 (.inl rfl) rfl p))
  unfold cat2
  by_cases h : j.val < 384
  · rw [dif_pos h]
    refine (concatenate_pair_apply_left _ _ _ concatenates_S16x384_S16x384_S16x768_d1 (ix2 p j) rfl
      (ix2 p (⟨j.val, h⟩ : Fin 384)) (fun b => by match b with | ⟨0, _⟩ => rfl | ⟨1, _⟩ => rfl)).trans ?_
    rw [wsumV_apply]
    simp only [weightV_apply]
  · rw [dif_neg h]
    have hj := j.isLt
    refine (concatenate_pair_apply_right _ _ _ concatenates_S16x384_S16x384_S16x768_d1 (ix2 p j) rfl rfl
      (ix2 p (⟨j.val - 384, by omega⟩ : Fin 384)) (fun b hb => by
        match b with
        | ⟨0, _⟩ => rfl
        | ⟨1, _⟩ => exact absurd rfl hb)
      (by show (j.val - 384) + 384 = j.val; omega)).trans ?_
    rw [wsumV_apply]
    simp only [weightV_apply]

theorem pooledV_apply (X Y : FVec Ideal S16x256x384 .f32) (M : FVec Ideal S16x256 .f32) (p : Fin 16) (j : Fin 768) :
    pooledV X Y M (ix2 p j) = pooled (tok X p) (tok Y p) (row M p) j := by
  unfold pooledV pooled
  simp only [divf_apply, repeat_keepdim, maximumf_apply, broadcast_apply, sqrt, cast_keepdim, meanV_apply,
    Ideal.sqrt_def, Ideal.ofBits_def]
  refine congrArg (fun s => Ideal.div _ (max (Ideal.sqrt s) epsN)) ?_
  refine (sum_row (mulf (meanV X Y M) (meanV X Y M)) 0x00000000#32 reduces_S16x768_S16 (.inl rfl) rfl p).trans ?_
  simp only [mulf_apply, meanV_apply]

/-! ## The two output blocks -/

theorem out_q (x y : Vec Ideal S16x256x384 .f32) (mq : Vec Ideal S16x256 .i32) (p : Fin 16) (j : Fin 768) :
    k0_pay10 x (k0_pay2 mq) (k0_pay5 x y) (k0_pay7 x) (k0_pay8 x y) (ix2 p j)
      = pooled (tok x p) (attQ (tok x p) (tok y p)) (fun q => (sitofp (F := Ideal) .f32 mq) (ix2 p q)) j := by
  rw [pay10_eq, pooledV_apply]
  have e : tok (k0_pay5 x y) p = attQ (tok x p) (tok y p) := funext fun q => funext fun d => pay5_apply x y p q d
  rw [e]

theorem out_a (x y : Vec Ideal S16x256x384 .f32) (ma : Vec Ideal S16x256 .i32) (p : Fin 16) (j : Fin 768) :
    k0_pay1 (k0_pay3 ma) (k0_pay6 x y) (k0_pay11 y (k0_pay3 ma) (k0_pay6 x y)) (k0_pay12 y (k0_pay3 ma) (k0_pay6 x y)) (ix2 p j)
      = pooled (tok y p) (attA (tok x p) (tok y p)) (fun q => (sitofp (F := Ideal) .f32 ma) (ix2 p q)) j := by
  rw [pay1_eq, pooledV_apply]
  have e : tok (k0_pay6 x y) p = attA (tok x p) (tok y p) := funext fun a => funext fun d => pay6_apply x y p a d
  rw [e]

end Cert.KernelIdeal.TileValue

end
-- ==== Proof.Whole.lean ====
/-
  The two result arrays as functions of the four argument arrays, one batch element at a time.

  Row `B` of the first result is the pooled, normalised vector of batch element `B`'s question with what it collected
  from the answer, under the question's mask; row `B` of the second the same for the answer. Both programs are compared
  with these two functions.
-/
import proofs.«104586_j69200513073212_2_alg».proof.Proof.Spec
import Idealize.ShloMosaic.Lib.ValueIdx

noncomputable section

namespace Cert.CrossAttend

open Idealize.ShloMosaic Idealize.ShloMosaic.ValueIdx

/-- Batch element `B` of a stack of 128 sentences. -/
abbrev tokOf (X : (⟨3, ![128, 256, 384]⟩ : Shape).Idx → EReal) (B : Fin 128) : Tok := fun q d => X (ix3 B q d)

/-- Batch element `B`'s mask, as floats. -/
abbrev maskOf (M : (⟨2, ![128, 256]⟩ : Shape).Idx → BitVec 32) (B : Fin 128) : Fin 256 → EReal :=
  fun q => (sitofp (F := Ideal) .f32 M) (ix2 B q)

/-- The first result: the questions' vectors. -/
def wholeQ (X A : (⟨3, ![128, 256, 384]⟩ : Shape).Idx → EReal) (M : (⟨2, ![128, 256]⟩ : Shape).Idx → BitVec 32) :
    (⟨2, ![128, 768]⟩ : Shape).Idx → EReal :=
  fun i => pooled (tokOf X (i 0)) (attQ (tokOf X (i 0)) (tokOf A (i 0))) (maskOf M (i 0)) (i 1)

/-- The second result: the answers' vectors. -/
def wholeA (X A : (⟨3, ![128, 256, 384]⟩ : Shape).Idx → EReal) (M : (⟨2, ![128, 256]⟩ : Shape).Idx → BitVec 32) :
    (⟨2, ![128, 768]⟩ : Shape).Idx → EReal :=
  fun i => pooled (tokOf A (i 0)) (attA (tokOf X (i 0)) (tokOf A (i 0))) (maskOf M (i 0)) (i 1)

end Cert.CrossAttend

end
-- ==== Proof.KernelRun.lean ====
/-
  From blocks to arrays: what the kernel's run leaves in its two result arrays.

  The grid has eight points; at point `t` each window's block is rows `16 t … 16 t + 15` of its array, whole in the
  other axes. So member `p` of every input block at point `t` is batch element `16 t + p` of the argument arrays, and
  what the point writes back to an output is rows `16 t … 16 t + 15` of `wholeQ` (`wholeA`) of the arguments. Row `r` of a
  result is covered by point `r / 16`; the eight blocks fill the array, so after the run the array IS that function,
  and the arguments are as launched.
-/
import proofs.«104586_j69200513073212_2_alg».proof.Proof.Gen.KernelIdeal.Frame
import proofs.«104586_j69200513073212_2_alg».proof.Proof.TilePool
import proofs.«104586_j69200513073212_2_alg».proof.Proof.Whole
import Idealize.ShloMosaic.Lib.Pipeline.Value

noncomputable section

namespace Cert.KernelIdeal.ArrayValue

open Cert.KernelIdeal Cert.KernelIdeal.Gen Cert.KernelIdeal.TileValue Cert.CrossAttend
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-- The printed index maps over the grid: every window is at block row `t`, block 0 in its other axes. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-- Member `p` of a sentence block at point `t` is batch element `16 t + p`. -/
theorem emb_tok0 (t : Fin cfg0.N) (p : Fin 16) (q : Fin 256) (d : Fin 384) (B : Fin 128) (hB : B.val = t.val * 16 + p.val) :
    ((cfg0.win 0).blk t).view.emb (ix3 p q d) = ix3 B q d := by
  obtain ⟨e0, e1, e2, -⟩ := idx_facts t
  funext a; apply Fin.ext
  match a with
  | ⟨0, _⟩ => show win0_0.index t (0 : Fin 3) * 16 + 1 * p.val = B.val; omega
  | ⟨1, _⟩ => show win0_0.index t (1 : Fin 3) * 256 + 1 * q.val = q.val; omega
  | ⟨2, _⟩ => show win0_0.index t (2 : Fin 3) * 384 + 1 * d.val = d.val; omega

theorem emb_tok1 (t : Fin cfg0.N) (p : Fin 16) (q : Fin 256) (d : Fin 384) (B : Fin 128) (hB : B.val = t.val * 16 + p.val) :
    ((cfg0.win 1).blk t).view.emb (ix3 p q d) = ix3 B q d := by
  obtain ⟨-, -, -, e0, e1, e2, -⟩ := idx_facts t
  funext a; apply Fin.ext
  match a with
  | ⟨0, _⟩ => show win0_1.index t (0 : Fin 3) * 16 + 1 * p.val = B.val; omega
  | ⟨1, _⟩ => show win0_1.index t (1 : Fin 3) * 256 + 1 * q.val = q.val; omega
  | ⟨2, _⟩ => show win0_1.index t (2 : Fin 3) * 384 + 1 * d.val = d.val; omega

theorem emb_mask2 (t : Fin cfg0.N) (p : Fin 16) (q : Fin 256) (B : Fin 128) (hB : B.val = t.val * 16 + p.val) :
    ((cfg0.win 2).blk t).view.emb (ix2 p q) = ix2 B q := by
  obtain ⟨-, -, -, -, -, -, e0, e1, -⟩ := idx_facts t
  funext a; apply Fin.ext
  match a with
  | ⟨0, _⟩ => show win0_2.index t (0 : Fin 2) * 16 + 1 * p.val = B.val; omega
  | ⟨1, _⟩ => show win0_2.index t (1 : Fin 2) * 256 + 1 * q.val = q.val; omega

theorem emb_mask3 (t : Fin cfg0.N) (p : Fin 16) (q : Fin 256) (B : Fin 128) (hB : B.val = t.val * 16 + p.val) :
    ((cfg0.win 3).blk t).view.emb (ix2 p q) = ix2 B q := by
  obtain ⟨-, -, -, -, -, -, -, -, e0, e1, -⟩ := idx_facts t
  funext a; apply Fin.ext
  match a with
  | ⟨0, _⟩ => show win0_3.index t (0 : Fin 2) * 16 + 1 * p.val = B.val; omega
  | ⟨1, _⟩ => show win0_3.index t (1 : Fin 2) * 256 + 1 * q.val = q.val; omega

/-- The row and the feature of an output block's entry `(p, j)` at point `t`. -/
theorem emb_out4 (t : Fin cfg0.N) (p : Fin 16) (j : Fin 768) :
    ((((cfg0.win 4).blk t).view.emb (ix2 p j)) 0).val = t.val * 16 + p.val
    ∧ ((((cfg0.win 4).blk t).view.emb (ix2 p j)) 1).val = j.val := by
  obtain ⟨-, -, -, -, -, -, -, -, -, -, e0, e1, -⟩ := idx_facts t
  constructor
  · show win0_4.index t (0 : Fin 2) * 16 + 1 * p.val = _; omega
  · show win0_4.index t (1 : Fin 2) * 768 + 1 * j.val = _; omega

theorem emb_out5 (t : Fin cfg0.N) (p : Fin 16) (j : Fin 768) :
    ((((cfg0.win 5).blk t).view.emb (ix2 p j)) 0).val = t.val * 16 + p.val
    ∧ ((((cfg0.win 5).blk t).view.emb (ix2 p j)) 1).val = j.val := by
  obtain ⟨-, -, -, -, -, -, -, -, -, -, -, -, e0, e1⟩ := idx_facts t
  constructor
  · show win0_5.index t (0 : Fin 2) * 16 + 1 * p.val = _; omega
  · show win0_5.index t (1 : Fin 2) * 768 + 1 * j.val = _; omega

/-- What point `t` writes back to the first result is its block of `wholeQ` of the arguments. -/
theorem flushedQ (c : Dev nD) (t : Fin cfg0.N) :
    (dats m 0 c).flushed 4 t = ((cfg0.win 4).blk t).view.read (Elt Ideal)
      (wholeQ (V m c main_arg0) (V m c main_arg1) (V m c main_arg2)) := by
  show (cfg0.win 4).cut (grid0.coords t) ((dats m 0 c).after 4 t) = _
  rw [after0_4]
  unfold out0_4
  rw [View.canon_unit_zero hz2]
  simp only [View.ld_unit_zero (S := S16x256x384) hz3, View.ld_unit_zero (S := S16x256) hz2]
  funext y
  obtain ⟨p, j, rfl⟩ : ∃ (p : Fin 16) (j : Fin 768), y = ix2 p j := ⟨y 0, y 1, eq_ix2 (n0 := 16) (n1 := 768) y⟩
  obtain ⟨h0, h1⟩ := emb_out4 t p j
  refine (out_q (iblk m c 0 t) (iblk m c 1 t) (iblk m c 2 t) p j).trans ?_
  show _ = pooled (tokOf (V m c main_arg0) ((((cfg0.win 4).blk t).view.emb (ix2 p j)) 0))
    (attQ (tokOf (V m c main_arg0) ((((cfg0.win 4).blk t).view.emb (ix2 p j)) 0)) (tokOf (V m c main_arg1) ((((cfg0.win 4).blk t).view.emb (ix2 p j)) 0)))
    (maskOf (V m c main_arg2) ((((cfg0.win 4).blk t).view.emb (ix2 p j)) 0)) ((((cfg0.win 4).blk t).view.emb (ix2 p j)) 1)
  have e0 : tok (iblk m c 0 t) p = tokOf (V m c main_arg0) ((((cfg0.win 4).blk t).view.emb (ix2 p j)) 0) :=
    funext fun q => funext fun d => congrArg (V m c main_arg0) (emb_tok0 t p q d _ h0)
  have e1 : tok (iblk m c 1 t) p = tokOf (V m c main_arg1) ((((cfg0.win 4).blk t).view.emb (ix2 p j)) 0) :=
    funext fun q => funext fun d => congrArg (V m c main_arg1) (emb_tok1 t p q d _ h0)
  have e2 : (fun q => (sitofp (F := Ideal) .f32 (iblk m c 2 t)) (ix2 p q)) = maskOf (V m c main_arg2) ((((cfg0.win 4).blk t).view.emb (ix2 p j)) 0) :=
    funext fun q => congrArg (fun i => FloatOps.sitofp (F := Ideal) .f32 (V m c main_arg2 i)) (emb_mask2 t p q _ h0)
  have e3 : j = (((cfg0.win 4).blk t).view.emb (ix2 p j)) 1 := Fin.ext h1.symm
  rw [e0, e1, e2]
  exact congrArg _ e3

/-- What point `t` writes back to the second result is its block of `wholeA` of the arguments. -/
theorem flushedA (c : Dev nD) (t : Fin cfg0.N) :
    (dats m 0 c).flushed 5 t = ((cfg0.win 5).blk t).view.read (Elt Ideal)
      (wholeA (V m c main_arg0) (V m c main_arg1) (V m c main_arg3)) := by
  show (cfg0.win 5).cut (grid0.coords t) ((dats m 0 c).after 5 t) = _
  rw [after0_5]
  unfold out0_5
  rw [View.canon_unit_zero hz2]
  simp only [View.ld_unit_zero (S := S16x256x384) hz3, View.ld_unit_zero (S := S16x256) hz2]
  funext y
  obtain ⟨p, j, rfl⟩ : ∃ (p : Fin 16) (j : Fin 768), y = ix2 p j := ⟨y 0, y 1, eq_ix2 (n0 := 16) (n1 := 768) y⟩
  obtain ⟨h0, h1⟩ := emb_out5 t p j
  refine (out_a (iblk m c 0 t) (iblk m c 1 t) (iblk m c 3 t) p j).trans ?_
  show _ = pooled (tokOf (V m c main_arg1) ((((cfg0.win 5).blk t).view.emb (ix2 p j)) 0))
    (attA (tokOf (V m c main_arg0) ((((cfg0.win 5).blk t).view.emb (ix2 p j)) 0)) (tokOf (V m c main_arg1) ((((cfg0.win 5).blk t).view.emb (ix2 p j)) 0)))
    (maskOf (V m c main_arg3) ((((cfg0.win 5).blk t).view.emb (ix2 p j)) 0)) ((((cfg0.win 5).blk t).view.emb (ix2 p j)) 1)
  have e0 : tok (iblk m c 0 t) p = tokOf (V m c main_arg0) ((((cfg0.win 5).blk t).view.emb (ix2 p j)) 0) :=
    funext fun q => funext fun d => congrArg (V m c main_arg0) (emb_tok0 t p q d _ h0)
  have e1 : tok (iblk m c 1 t) p = tokOf (V m c main_arg1) ((((cfg0.win 5).blk t).view.emb (ix2 p j)) 0) :=
    funext fun q => funext fun d => congrArg (V m c main_arg1) (emb_tok1 t p q d _ h0)
  have e2 : (fun q => (sitofp (F := Ideal) .f32 (iblk m c 3 t)) (ix2 p q)) = maskOf (V m c main_arg3) ((((cfg0.win 5).blk t).view.emb (ix2 p j)) 0) :=
    funext fun q => congrArg (fun i => FloatOps.sitofp (F := Ideal) .f32 (V m c main_arg3 i)) (emb_mask3 t p q _ h0)
  have e3 : j = (((cfg0.win 5).blk t).view.emb (ix2 p j)) 1 := Fin.ext h1.symm
  rw [e0, e1, e2]
  exact congrArg _ e3

/-- An index of a result array is in point `t`'s block iff each coordinate is in the block's range on its axis. -/
theorem mem_blk4 (t : Fin cfg0.N) (i : S128x768.Idx) :
    i ∈ ((cfg0.win 4).blk t).view.set ↔ ∀ a : Fin 2, win0_4.index t a * S16x768.size a ≤ (i a).val ∧ (i a).val < win0_4.index t a * S16x768.size a + S16x768.size a := by
  show i ∈ ((View.whole main_v0_0).slice (win0_4.rect t)).set ↔ _
  rw [View.set_slice_whole, Rect.mem_set_unit]
  exact Iff.rfl

theorem mem_blk5 (t : Fin cfg0.N) (i : S128x768.Idx) :
    i ∈ ((cfg0.win 5).blk t).view.set ↔ ∀ a : Fin 2, win0_5.index t a * S16x768.size a ≤ (i a).val ∧ (i a).val < win0_5.index t a * S16x768.size a + S16x768.size a := by
  show i ∈ ((View.whole main_v0_1).slice (win0_5.rect t)).set ↔ _
  rw [View.set_slice_whole, Rect.mem_set_unit]
  exact Iff.rfl

/-- Row `r` of the first result lies in the block of point `r / 16`. -/
theorem cover4 (i : S128x768.Idx) : ∃ t : Fin cfg0.N, (cfg0.win 4).flush t = true ∧ i ∈ ((cfg0.win 4).blk t).view.set := by
  have hi0 : (i 0).val < 128 := (i 0).isLt
  have hi1 : (i 1).val < 768 := (i 1).isLt
  let t : Fin cfg0.N := ⟨(i 0).val / 16, by show (i 0).val / 16 < 8; omega⟩
  have ht : t.val = (i 0).val / 16 := rfl
  obtain ⟨-, -, -, -, -, -, -, -, -, -, e0, e1, -⟩ := idx_facts t
  refine ⟨t, flush0_4 t, ?_⟩
  rw [mem_blk4]
  intro a
  match a with
  | ⟨0, _⟩ => show win0_4.index t (0 : Fin 2) * 16 ≤ (i 0).val ∧ (i 0).val < win0_4.index t (0 : Fin 2) * 16 + 16; omega
  | ⟨1, _⟩ => show win0_4.index t (1 : Fin 2) * 768 ≤ (i 1).val ∧ (i 1).val < win0_4.index t (1 : Fin 2) * 768 + 768; omega

theorem cover5 (i : S128x768.Idx) : ∃ t : Fin cfg0.N, (cfg0.win 5).flush t = true ∧ i ∈ ((cfg0.win 5).blk t).view.set := by
  have hi0 : (i 0).val < 128 := (i 0).isLt
  have hi1 : (i 1).val < 768 := (i 1).isLt
  let t : Fin cfg0.N := ⟨(i 0).val / 16, by show (i 0).val / 16 < 8; omega⟩
  have ht : t.val = (i 0).val / 16 := rfl
  obtain ⟨-, -, -, -, -, -, -, -, -, -, -, -, e0, e1⟩ := idx_facts t
  refine ⟨t, flush0_5 t, ?_⟩
  rw [mem_blk5]
  intro a
  match a with
  | ⟨0, _⟩ => show win0_5.index t (0 : Fin 2) * 16 ≤ (i 0).val ∧ (i 0).val < win0_5.index t (0 : Fin 2) * 16 + 16; omega
  | ⟨1, _⟩ => show win0_5.index t (1 : Fin 2) * 768 ≤ (i 1).val ∧ (i 1).val < win0_5.index t (1 : Fin 2) * 768 + 768; omega

/-- The first result array after the run. -/
theorem finalQ (c : Dev nD) : (dats m 0 c).arrAt 4 cfg0.N
    = wholeQ (m ((c : Thread nD τ).loc main_arg0)) (m ((c : Thread nD τ).loc main_arg1)) (m ((c : Thread nD τ).loc main_arg2)) :=
  (dats m 0 c).arrAt_eq_of_cover 4 _ (fun t _ => flushedQ m c t) cover4

/-- The second result array after the run. -/
theorem finalA (c : Dev nD) : (dats m 0 c).arrAt 5 cfg0.N
    = wholeA (m ((c : Thread nD τ).loc main_arg0)) (m ((c : Thread nD τ).loc main_arg1)) (m ((c : Thread nD τ).loc main_arg3)) :=
  (dats m 0 c).arrAt_eq_of_cover 5 _ (fun t _ => flushedA m c t) cover5

/-- The kernel's run: each result array at its function of the arguments, the arguments unchanged. -/
theorem run : θ_run defs (onTc (τ := τ) (main (F := Ideal))) ⟨m, fun _ => 0, ρ⟩ fun r => ∀ c : Dev nD,
      r.2.mem ((c : Thread nD τ).loc main_v0_0)
        = wholeQ (m ((c : Thread nD τ).loc main_arg0)) (m ((c : Thread nD τ).loc main_arg1)) (m ((c : Thread nD τ).loc main_arg2))
      ∧ r.2.mem ((c : Thread nD τ).loc main_v0_1)
        = wholeA (m ((c : Thread nD τ).loc main_arg0)) (m ((c : Thread nD τ).loc main_arg1)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨((h c).1 4).trans (finalQ m c),
      ((h c).1 5).trans (finalA m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c)))⟩)
    (run_main m ρ)

end Cert.KernelIdeal.ArrayValue

end
-- ==== Proof.RefValue.lean ====
/-
  The reference program's two results, entry by entry.

  The reference works on all 128 batch elements at once, and each of its operations acts on every batch element by
  itself; read at `(B, ·)` its stages are the stages of `Cert.CrossAttend` for batch element `B`: the scores, the softmax of a
  question token's scores over the answer tokens and, after exchanging the two token axes, of an answer token's scores
  over the question tokens, what each side collects, and the pooling in the arrangement `pooledR` (the concatenated token
  divided by its norm, then masked; every sum from the literal zero). `pooledR` equals `pooled` (`pooledR_eq`).
-/
import proofs.«104586_j69200513073212_2_alg».proof.Proof.RefRead
import proofs.«104586_j69200513073212_2_alg».proof.Proof.TileOps
import proofs.«104586_j69200513073212_2_alg».proof.Proof.Spec
import Idealize.ShloMosaic.Lib.ValueIdx
import Idealize.ShloMosaic.Lib.Pipeline.Value

noncomputable section

namespace Cert.ReferenceIdeal.RefValue

open Cert.ReferenceIdeal Cert.ReferenceIdeal.ReadP Cert.ReferenceIdeal.Facts₀ Cert.CrossAttend
open Idealize.ShloMosaic Idealize.ShloMosaic.ValueIdx

/-- Two indices of a literal shape agree when their coordinates do. -/
macro "idx1" : tactic => `(tactic| exact funext fun c => Fin.ext (by match c with | ⟨0, _⟩ => rfl))
macro "idx2" : tactic => `(tactic| exact funext fun c => Fin.ext (by match c with | ⟨0, _⟩ => rfl | ⟨1, _⟩ => rfl))
macro "idx3" : tactic => `(tactic| exact funext fun c => Fin.ext (by match c with | ⟨0, _⟩ => rfl | ⟨1, _⟩ => rfl | ⟨2, _⟩ => rfl))

/-- Batch element `B` of a stack of sentences. -/
abbrev tokR (X : (⟨S128x256x384, .f32⟩ : BufTy).Contents (Elt Ideal)) (B : Fin 128) : Tok := fun q d => X (ix3 B q d)

/-- Batch element `B`'s mask, as floats. -/
abbrev maskR (M : (⟨S128x256, .i32⟩ : BufTy).Contents (Elt Ideal)) (B : Fin 128) : Fin 256 → EReal :=
  fun q => (sitofp (F := Ideal) .f32 M) (ix2 B q)

variable (x0 x1 : (⟨S128x256x384, .f32⟩ : BufTy).Contents (Elt Ideal))
variable (x2 x3 : (⟨S128x256, .i32⟩ : BufTy).Contents (Elt Ideal))

/-! ## Scores, the two softmaxes, what each side collects -/

theorem v0_at (B : Fin 128) (q a : Fin 256) :
    val_main_v0 (F := Ideal) x0 x1 (ix3 B q a) = score (tokR x0 B) (tokR x1 B) q a := by
  unfold score
  rw [val_main_v0_apply]
  refine Finset.sum_congr rfl fun k _ => ?_
  rw [show lidx_main_v0 (ix3 B q a) k = ix3 B q k by idx3, show ridx_main_v0 (ix3 B q a) k = ix3 B a k by idx3]

theorem v3_at (B : Fin 128) (q : Fin 256) :
    val_main_v3 (F := Ideal) x0 x1 (ix2 B q) = maxOver (fun a => val_main_v0 (F := Ideal) x0 x1 (ix3 B q a)) := by
  rw [val_main_v3_apply, val_main_v2_apply, val_main_cst_0_apply]
  unfold val_main_v1
  have hred : S128x256x256.Reduces [2] S128x256 := by decide
  rw [Host.reduce_eq_fold_single FloatOps.maximumf _ _ reducesTo_S128x256x256_S128x256_d2 hred h_S_]
  exact congrArg (max negInf) (congrArg (fun f => (Finset.univ : Finset (Fin 256)).fold max negInf f)
    (funext fun k => congrArg (val_main_v0 (F := Ideal) x0 x1) (Cert.TileOps.lift_last hred B q k)))

theorem v7_at (B : Fin 128) (q a : Fin 256) :
    val_main_v7 (F := Ideal) x0 x1 (ix3 B q a) = expOver (fun a' => val_main_v0 (F := Ideal) x0 x1 (ix3 B q a')) a := by
  rw [val_main_v7_apply, val_main_v6_apply, val_main_v5_apply, val_main_v4_apply,
    show idx_main_v4 (idx_main_v5 (ix3 B q a)) = ix2 B q by idx2, v3_at]
  rfl

theorem v11_at (B : Fin 128) (q a : Fin 256) :
    val_main_v11 (F := Ideal) x0 x1 (ix3 B q a) = softmax (fun a' => val_main_v0 (F := Ideal) x0 x1 (ix3 B q a')) a := by
  rw [val_main_v11_apply, val_main_v10_apply, val_main_v9_apply,
    show idx_main_v9 (idx_main_v10 (ix3 B q a)) = ix2 B q by idx2, val_main_v8_apply, val_main_cst_1_apply, v7_at]
  unfold softmax
  rw [Ideal.ofBits_def, Ideal.ofBits_zero_f32, zero_add]
  refine congrArg (Ideal.div _) (Finset.sum_congr rfl fun k _ => ?_)
  rw [show idx_main_v8 (ix2 B q) k = ix3 B q k by idx3, v7_at]

theorem v12_at (B : Fin 128) (a q : Fin 256) :
    val_main_v12 (F := Ideal) x0 x1 (ix3 B a q) = val_main_v0 (F := Ideal) x0 x1 (ix3 B q a) := by
  rw [val_main_v12_apply, show idx_main_v12 (ix3 B a q) = ix3 B q a by idx3]

theorem v15_at (B : Fin 128) (a : Fin 256) :
    val_main_v15 (F := Ideal) x0 x1 (ix2 B a) = maxOver (fun q => val_main_v0 (F := Ideal) x0 x1 (ix3 B q a)) := by
  rw [val_main_v15_apply, val_main_v14_apply, val_main_cst_3_apply]
  unfold val_main_v13
  have hred : S128x256x256.Reduces [2] S128x256 := by decide
  rw [Host.reduce_eq_fold_single FloatOps.maximumf _ _ reducesTo_S128x256x256_S128x256_d2 hred h_S_]
  exact congrArg (max negInf) (congrArg (fun f => (Finset.univ : Finset (Fin 256)).fold max negInf f)
    (funext fun k => (congrArg (val_main_v12 (F := Ideal) x0 x1) (Cert.TileOps.lift_last hred B a k)).trans (v12_at x0 x1 B a k)))

theorem v19_at (B : Fin 128) (a q : Fin 256) :
    val_main_v19 (F := Ideal) x0 x1 (ix3 B a q) = expOver (fun q' => val_main_v0 (F := Ideal) x0 x1 (ix3 B q' a)) q := by
  rw [val_main_v19_apply, val_main_v18_apply, val_main_v17_apply, val_main_v16_apply,
    show idx_main_v16 (idx_main_v17 (ix3 B a q)) = ix2 B a by idx2, v15_at, v12_at]
  rfl

theorem v23_at (B : Fin 128) (a q : Fin 256) :
    val_main_v23 (F := Ideal) x0 x1 (ix3 B a q) = softmax (fun q' => val_main_v0 (F := Ideal) x0 x1 (ix3 B q' a)) q := by
  rw [val_main_v23_apply, val_main_v22_apply, val_main_v21_apply,
    show idx_main_v21 (idx_main_v22 (ix3 B a q)) = ix2 B a by idx2, val_main_v20_apply, val_main_cst_4_apply, v19_at]
  unfold softmax
  rw [Ideal.ofBits_def, Ideal.ofBits_zero_f32, zero_add]
  refine congrArg (Ideal.div _) (Finset.sum_congr rfl fun k _ => ?_)
  rw [show idx_main_v20 (ix2 B a) k = ix3 B a k by idx3, v19_at]

theorem v24_at (B : Fin 128) (q : Fin 256) (d : Fin 384) :
    val_main_v24 (F := Ideal) x0 x1 (ix3 B q d) = attQ (tokR x0 B) (tokR x1 B) q d := by
  unfold attQ
  rw [val_main_v24_apply]
  refine Finset.sum_congr rfl fun k _ => ?_
  rw [show lidx_main_v24 (ix3 B q d) k = ix3 B q k by idx3, show ridx_main_v24 (ix3 B q d) k = ix3 B k d by idx3, v11_at]
  simp only [v0_at]

theorem v25_at (B : Fin 128) (a : Fin 256) (d : Fin 384) :
    val_main_v25 (F := Ideal) x0 x1 (ix3 B a d) = attA (tokR x0 B) (tokR x1 B) a d := by
  unfold attA
  rw [val_main_v25_apply]
  refine Finset.sum_congr rfl fun k _ => ?_
  rw [show lidx_main_v25 (ix3 B a d) k = ix3 B a k by idx3, show ridx_main_v25 (ix3 B a d) k = ix3 B k d by idx3, v23_at]
  simp only [v0_at]

/-! ## The question's pooled vector -/

/-- The token's own features and what it collected, laid end to end. -/
theorem cat_q (B : Fin 128) (q : Fin 256) (j : Fin 768) :
    val_main_v26 (F := Ideal) x0 x1 (ix3 B q j) = cat2 (tokR x0 B q) (attQ (tokR x0 B) (tokR x1 B) q) j := by
  unfold val_main_v26 cat2
  by_cases h : j.val < 384
  · rw [dif_pos h]
    exact concatenate_pair_apply_left _ _ _ concatenates_S128x256x384_S128x256x384_S128x256x768_d2 (ix3 B q j) rfl
      (ix3 B q (⟨j.val, h⟩ : Fin 384)) (fun b => by match b with | ⟨0, _⟩ => rfl | ⟨1, _⟩ => rfl | ⟨2, _⟩ => rfl)
  · rw [dif_neg h]
    have hj := j.isLt
    refine (concatenate_pair_apply_right _ _ _ concatenates_S128x256x384_S128x256x384_S128x256x768_d2 (ix3 B q j) rfl rfl
      (ix3 B q (⟨j.val - 384, by omega⟩ : Fin 384)) (fun b hb => by
        match b with
        | ⟨0, _⟩ => rfl
        | ⟨1, _⟩ => rfl
        | ⟨2, _⟩ => exact absurd rfl hb)
      (by show (j.val - 384) + 384 = j.val; omega)).trans ?_
    exact v24_at x0 x1 B q _

/-- The token's norm, kept as a column. -/
theorem norm_q (B : Fin 128) (q : Fin 256) (z : Fin 1) :
    val_main_v32 (F := Ideal) x0 x1 (ix3 B q z) = tokNormR (tokR x0 B) (attQ (tokR x0 B) (tokR x1 B)) q := by
  rw [val_main_v32_apply, val_main_v30_apply, val_main_v29_apply, val_main_v31_apply, val_main_cst_6_apply,
    show idx_main_v29 (ix3 B q z) = ix2 B q by idx2, val_main_v28_apply, val_main_cst_5_apply]
  unfold tokNormR
  refine congrArg (fun s => max (Ideal.sqrt (Ideal.ofBits .f32 0x00000000#32 + s)) epsN) (Finset.sum_congr rfl fun k _ => ?_)
  rw [show idx_main_v28 (ix2 B q) k = ix3 B q k by idx3, val_main_v27_apply, cat_q]
  rfl

/-- The normalised token. -/
theorem unit_q (B : Fin 128) (q : Fin 256) (j : Fin 768) :
    val_main_v34 (F := Ideal) x0 x1 (ix3 B q j)
      = Ideal.div (cat2 (tokR x0 B q) (attQ (tokR x0 B) (tokR x1 B) q) j) (tokNormR (tokR x0 B) (attQ (tokR x0 B) (tokR x1 B)) q) := by
  rw [val_main_v34_apply, val_main_v33_apply, show idx_main_v33 (ix3 B q j) = ix3 B q (0 : Fin 1) by idx3, norm_q, cat_q]
  rfl

/-- The mask as a float, repeated along the features. -/
theorem mask_q (B : Fin 128) (q : Fin 256) (j : Fin 768) :
    val_main_v46 (F := Ideal) x2 (ix3 B q j) = maskR x2 B q := by
  rw [val_main_v46_apply, val_main_v45_apply, show idx_main_v45 (idx_main_v46 (ix3 B q j)) = ix2 B q by idx2, val_main_v44_apply]
  rfl

/-- The masked sum over tokens. -/
theorem summed_q (B : Fin 128) (j : Fin 768) :
    val_main_v48 (F := Ideal) x0 x1 x2 (ix2 B j)
      = Ideal.ofBits .f32 0x00000000#32 + ∑ q : Fin 256,
          Ideal.div (cat2 (tokR x0 B q) (attQ (tokR x0 B) (tokR x1 B) q) j) (tokNormR (tokR x0 B) (attQ (tokR x0 B) (tokR x1 B)) q)
            * maskR x2 B q := by
  rw [val_main_v48_apply, val_main_cst_9_apply]
  refine congrArg (fun s => Ideal.ofBits .f32 0x00000000#32 + s) (Finset.sum_congr rfl fun k _ => ?_)
  rw [show idx_main_v48 (ix2 B j) k = ix3 B k j by idx3, val_main_v47_apply, unit_q, mask_q]
  rfl

/-- The number of unmasked tokens, not below 1e-9, kept as a column. -/
theorem count_q (B : Fin 128) (z : Fin 1) :
    val_main_v51 (F := Ideal) x2 (ix2 B z) = max (Ideal.ofBits .f32 0x00000000#32 + ∑ q : Fin 256, maskR x2 B q) epsP := by
  rw [val_main_v51_apply, val_main_v50_apply, val_main_cst_11_apply, val_main_v49_apply, val_main_cst_10_apply]
  refine congrArg (fun s => max (Ideal.ofBits .f32 0x00000000#32 + s) epsP) (Finset.sum_congr rfl fun k _ => ?_)
  rw [val_main_v45_apply, show idx_main_v45 (idx_main_v49 (ix2 B z) k) = ix2 B k by idx2, val_main_v44_apply]
  rfl

/-- The masked mean. -/
theorem mean_q (B : Fin 128) (j : Fin 768) :
    val_main_v53 (F := Ideal) x0 x1 x2 (ix2 B j) = meanR (tokR x0 B) (attQ (tokR x0 B) (tokR x1 B)) (maskR x2 B) j := by
  rw [val_main_v53_apply, val_main_v52_apply, show idx_main_v52 (ix2 B j) = ix2 B (0 : Fin 1) by idx2, count_q, summed_q]
  rfl

/-- The mean's norm, not below 1e-12, kept as a column. -/
theorem meanNorm_q (B : Fin 128) (z : Fin 1) :
    val_main_v59 (F := Ideal) x0 x1 x2 (ix2 B z)
      = max (Ideal.sqrt (Ideal.ofBits .f32 0x00000000#32 + ∑ j' : Fin 768,
          meanR (tokR x0 B) (attQ (tokR x0 B) (tokR x1 B)) (maskR x2 B) j' * meanR (tokR x0 B) (attQ (tokR x0 B) (tokR x1 B)) (maskR x2 B) j')) epsN := by
  rw [val_main_v59_apply, val_main_v57_apply, val_main_v56_apply, val_main_v58_apply, val_main_cst_13_apply,
    show idx_main_v56 (ix2 B z) = ix1 B by idx1, val_main_v55_apply, val_main_cst_12_apply]
  refine congrArg (fun s => max (Ideal.sqrt (Ideal.ofBits .f32 0x00000000#32 + s)) epsN) (Finset.sum_congr rfl fun k _ => ?_)
  rw [show idx_main_v55 (ix1 B) k = ix2 B k by idx2, val_main_v54_apply, mean_q]
  rfl

/-- The result: the pooled, normalised sentence vector of batch element `B`, in the reference's arrangement. -/
theorem out_q (B : Fin 128) (j : Fin 768) :
    val_main_v61 (F := Ideal) x0 x1 x2 (ix2 B j) = pooledR (tokR x0 B) (attQ (tokR x0 B) (tokR x1 B)) (maskR x2 B) j := by
  rw [val_main_v61_apply, val_main_v60_apply, show idx_main_v60 (ix2 B j) = ix2 B (0 : Fin 1) by idx2, meanNorm_q, mean_q]
  rfl

/-! ## The answer's pooled vector -/

/-- The token's own features and what it collected, laid end to end. -/
theorem cat_a (B : Fin 128) (q : Fin 256) (j : Fin 768) :
    val_main_v35 (F := Ideal) x0 x1 (ix3 B q j) = cat2 (tokR x1 B q) (attA (tokR x0 B) (tokR x1 B) q) j := by
  unfold val_main_v35 cat2
  by_cases h : j.val < 384
  · rw [dif_pos h]
    exact concatenate_pair_apply_left _ _ _ concatenates_S128x256x384_S128x256x384_S128x256x768_d2 (ix3 B q j) rfl
      (ix3 B q (⟨j.val, h⟩ : Fin 384)) (fun b => by match b with | ⟨0, _⟩ => rfl | ⟨1, _⟩ => rfl | ⟨2, _⟩ => rfl)
  · rw [dif_neg h]
    have hj := j.isLt
    refine (concatenate_pair_apply_right _ _ _ concatenates_S128x256x384_S128x256x384_S128x256x768_d2 (ix3 B q j) rfl rfl
      (ix3 B q (⟨j.val - 384, by omega⟩ : Fin 384)) (fun b hb => by
        match b with
        | ⟨0, _⟩ => rfl
        | ⟨1, _⟩ => rfl
        | ⟨2, _⟩ => exact absurd rfl hb)
      (by show (j.val - 384) + 384 = j.val; omega)).trans ?_
    exact v25_at x0 x1 B q _

/-- The token's norm, kept as a column. -/
theorem norm_a (B : Fin 128) (q : Fin 256) (z : Fin 1) :
    val_main_v41 (F := Ideal) x0 x1 (ix3 B q z) = tokNormR (tokR x1 B) (attA (tokR x0 B) (tokR x1 B)) q := by
  rw [val_main_v41_apply, val_main_v39_apply, val_main_v38_apply, val_main_v40_apply, val_main_cst_8_apply,
    show idx_main_v38 (ix3 B q z) = ix2 B q by idx2, val_main_v37_apply, val_main_cst_7_apply]
  unfold tokNormR
  refine congrArg (fun s => max (Ideal.sqrt (Ideal.ofBits .f32 0x00000000#32 + s)) epsN) (Finset.sum_congr rfl fun k _ => ?_)
  rw [show idx_main_v37 (ix2 B q) k = ix3 B q k by idx3, val_main_v36_apply, cat_a]
  rfl

/-- The normalised token. -/
theorem unit_a (B : Fin 128) (q : Fin 256) (j : Fin 768) :
    val_main_v43 (F := Ideal) x0 x1 (ix3 B q j)
      = Ideal.div (cat2 (tokR x1 B q) (attA (tokR x0 B) (tokR x1 B) q) j) (tokNormR (tokR x1 B) (attA (tokR x0 B) (tokR x1 B)) q) := by
  rw [val_main_v43_apply, val_main_v42_apply, show idx_main_v42 (ix3 B q j) = ix3 B q (0 : Fin 1) by idx3, norm_a, cat_a]
  rfl

/-- The mask as a float, repeated along the features. -/
theorem mask_a (B : Fin 128) (q : Fin 256) (j : Fin 768) :
    val_main_v64 (F := Ideal) x3 (ix3 B q j) = maskR x3 B q := by
  rw [val_main_v64_apply, val_main_v63_apply, show idx_main_v63 (idx_main_v64 (ix3 B q j)) = ix2 B q by idx2, val_main_v62_apply]
  rfl

/-- The masked sum over tokens. -/
theorem summed_a (B : Fin 128) (j : Fin 768) :
    val_main_v66 (F := Ideal) x0 x1 x3 (ix2 B j)
      = Ideal.ofBits .f32 0x00000000#32 + ∑ q : Fin 256,
          Ideal.div (cat2 (tokR x1 B q) (attA (tokR x0 B) (tokR x1 B) q) j) (tokNormR (tokR x1 B) (attA (tokR x0 B) (tokR x1 B)) q)
            * maskR x3 B q := by
  rw [val_main_v66_apply, val_main_cst_14_apply]
  refine congrArg (fun s => Ideal.ofBits .f32 0x00000000#32 + s) (Finset.sum_congr rfl fun k _ => ?_)
  rw [show idx_main_v66 (ix2 B j) k = ix3 B k j by idx3, val_main_v65_apply, unit_a, mask_a]
  rfl

/-- The number of unmasked tokens, not below 1e-9, kept as a column. -/
theorem count_a (B : Fin 128) (z : Fin 1) :
    val_main_v69 (F := Ideal) x3 (ix2 B z) = max (Ideal.ofBits .f32 0x00000000#32 + ∑ q : Fin 256, maskR x3 B q) epsP := by
  rw [val_main_v69_apply, val_main_v68_apply, val_main_cst_16_apply, val_main_v67_apply, val_main_cst_15_apply]
  refine congrArg (fun s => max (Ideal.ofBits .f32 0x00000000#32 + s) epsP) (Finset.sum_congr rfl fun k _ => ?_)
  rw [val_main_v63_apply, show idx_main_v63 (idx_main_v67 (ix2 B z) k) = ix2 B k by idx2, val_main_v62_apply]
  rfl

/-- The masked mean. -/
theorem mean_a (B : Fin 128) (j : Fin 768) :
    val_main_v71 (F := Ideal) x0 x1 x3 (ix2 B j) = meanR (tokR x1 B) (attA (tokR x0 B) (tokR x1 B)) (maskR x3 B) j := by
  rw [val_main_v71_apply, val_main_v70_apply, show idx_main_v70 (ix2 B j) = ix2 B (0 : Fin 1) by idx2, count_a, summed_a]
  rfl

/-- The mean's norm, not below 1e-12, kept as a column. -/
theorem meanNorm_a (B : Fin 128) (z : Fin 1) :
    val_main_v77 (F := Ideal) x0 x1 x3 (ix2 B z)
      = max (Ideal.sqrt (Ideal.ofBits .f32 0x00000000#32 + ∑ j' : Fin 768,
          meanR (tokR x1 B) (attA (tokR x0 B) (tokR x1 B)) (maskR x3 B) j' * meanR (tokR x1 B) (attA (tokR x0 B) (tokR x1 B)) (maskR x3 B) j')) epsN := by
  rw [val_main_v77_apply, val_main_v75_apply, val_main_v74_apply, val_main_v76_apply, val_main_cst_18_apply,
    show idx_main_v74 (ix2 B z) = ix1 B by idx1, val_main_v73_apply, val_main_cst_17_apply]
  refine congrArg (fun s => max (Ideal.sqrt (Ideal.ofBits .f32 0x00000000#32 + s)) epsN) (Finset.sum_congr rfl fun k _ => ?_)
  rw [show idx_main_v73 (ix1 B) k = ix2 B k by idx2, val_main_v72_apply, mean_a]
  rfl

/-- The result: the pooled, normalised sentence vector of batch element `B`, in the reference's arrangement. -/
theorem out_a (B : Fin 128) (j : Fin 768) :
    val_main_v79 (F := Ideal) x0 x1 x3 (ix2 B j) = pooledR (tokR x1 B) (attA (tokR x0 B) (tokR x1 B)) (maskR x3 B) j := by
  rw [val_main_v79_apply, val_main_v78_apply, show idx_main_v78 (ix2 B j) = ix2 B (0 : Fin 1) by idx2, meanNorm_a, mean_a]
  rfl

end Cert.ReferenceIdeal.RefValue

end
-- ==== Proof.RefResult.lean ====
/-
  The reference's two results are `wholeQ` and `wholeA` of its arguments: row `B` of each is batch element `B`'s pooled vector
  in the reference's arrangement, which is the other arrangement (`pooledR_eq`).
-/
import proofs.«104586_j69200513073212_2_alg».proof.Proof.RefValue
import proofs.«104586_j69200513073212_2_alg».proof.Proof.Whole

noncomputable section

namespace Cert.ReferenceIdeal.RefValue

open Cert.ReferenceIdeal Cert.ReferenceIdeal.ReadP Cert.CrossAttend
open Idealize.ShloMosaic Idealize.ShloMosaic.ValueIdx

theorem result_q (x0 x1 : (⟨S128x256x384, .f32⟩ : BufTy).Contents (Elt Ideal)) (x2 : (⟨S128x256, .i32⟩ : BufTy).Contents (Elt Ideal)) :
    val_main_v61 (F := Ideal) x0 x1 x2 = wholeQ x0 x1 x2 := by
  funext i
  obtain ⟨B, j, rfl⟩ : ∃ (B : Fin 128) (j : Fin 768), i = ix2 B j := ⟨i 0, i 1, eq_ix2 i⟩
  rw [out_q, pooledR_eq]
  rfl

theorem result_a (x0 x1 : (⟨S128x256x384, .f32⟩ : BufTy).Contents (Elt Ideal)) (x3 : (⟨S128x256, .i32⟩ : BufTy).Contents (Elt Ideal)) :
    val_main_v79 (F := Ideal) x0 x1 x3 = wholeA x0 x1 x3 := by
  funext i
  obtain ⟨B, j, rfl⟩ : ∃ (B : Fin 128) (j : Fin 768), i = ix2 B j := ⟨i 0, i 1, eq_ix2 i⟩
  rw [out_a, pooledR_eq]
  rfl

end Cert.ReferenceIdeal.RefValue

end
-- ==== Proof.lean ====
/-
  Cross-attention between a question and an answer, pooled and normalised: the kernel against its jnp reference.

  The kernel handles 16 batch elements per grid point, the reference all 128 at once; every operation of either acts
  on each batch element by itself. Per batch element both compute, on the extended reals, the same thing: the scores
  of question tokens against answer tokens, a softmax of each question token's scores over the answer tokens and of
  each answer token's scores over the question tokens (the kernel along the first matrix axis of the one score
  matrix, the reference along the last axis of its transpose), what each token collects with those weights, and then
  for each side the masked mean of the tokens' 768 numbers (own features, collected features) divided by their norm,
  normalised once more. The two texts differ in the tiling, in the kernel's changes of float format (the identity on
  the extended reals), in summing the 768 squares as two sums of 384, and in the kernel's multiplying the mask and the
  reciprocal of the norm into one weight before the token sum where the reference divides, then masks. That last
  step is `(x / y) · m = x · (m · (1 / y))` for a divisor that is a maximum with the positive literal 1e-12, hence not
  zero: associativity and commutativity of the product; no finiteness of the inputs is used.

  Modules: Spec (one batch element's mathematics and the law joining the two arrangements), Whole (the two results
  as functions of the four argument arrays), TileOps and LibAxisMoves (a tile read one coordinate at a time), TileValue
  (the kernel's body at an entry), KernelRun (from blocks to arrays: the kernel's run), RefRun and RefRead (the
  reference's run and its stages), RefValue and RefResult (the reference's results at an entry).
-/
import proofs.«104586_j69200513073212_2_alg».proof.Defs
import proofs.«104586_j69200513073212_2_alg».proof.Proof.Gen.Kernel
import proofs.«104586_j69200513073212_2_alg».proof.Proof.Gen.Kernel.Skeleton
import proofs.«104586_j69200513073212_2_alg».proof.Proof.Gen.Kernel.Launch
import proofs.«104586_j69200513073212_2_alg».proof.Proof.Gen.Kernel.Points
import proofs.«104586_j69200513073212_2_alg».proof.Proof.Gen.Kernel.Frame
import proofs.«104586_j69200513073212_2_alg».proof.Proof.Gen.KernelIdeal
import proofs.«104586_j69200513073212_2_alg».proof.Proof.Gen.KernelIdeal.Skeleton
import proofs.«104586_j69200513073212_2_alg».proof.Proof.Gen.KernelIdeal.Launch
import proofs.«104586_j69200513073212_2_alg».proof.Proof.Gen.KernelIdeal.Points
import proofs.«104586_j69200513073212_2_alg».proof.Proof.Gen.KernelIdeal.Frame
import proofs.«104586_j69200513073212_2_alg».proof.Proof.Gen.ReferenceIdeal
import proofs.«104586_j69200513073212_2_alg».proof.Proof.Gen.Pre_finite_inputs
import proofs.«104586_j69200513073212_2_alg».proof.Proof.KernelRun
import proofs.«104586_j69200513073212_2_alg».proof.Proof.RefResult
import Idealize.ShloMosaic.Adequacy
import Idealize.ShloMosaic.Init

noncomputable section

namespace Cert.Proof

open Idealize.ShloMosaic Idealize.SL.Sem Cert.Kernel

/-- The word-level kernel runs and keeps its arguments. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference's run, its results dropped. -/
theorem frame_referenceIdeal : Cert.frame_ReferenceIdeal := fun m ρ _ =>
  (θ_run Cert.ReferenceIdeal.defs _ _).mono (fun _ h c => (h c).2.2) (Cert.ReferenceIdeal.ValueP.run (F := Ideal) m ρ)

/-- Both programs end with the questions' vectors in the first result and the answers' in the second, as functions
    of arguments that agree. -/
theorem algebraic : Cert.algebraic_KernelIdeal_ReferenceIdeal := by
  intro m ρ m' ρ' _ hagree
  refine ⟨_, _, Cert.KernelIdeal.ArrayValue.run m ρ, ?_⟩
  refine (θ_run Cert.ReferenceIdeal.defs _ _).mono (fun _ h c => ⟨?_, ?_, (h c).2.2⟩)
    (Cert.ReferenceIdeal.ValueP.run (F := Ideal) m' ρ')
  · rw [(h c).1, Cert.ReferenceIdeal.ReadP.val_main_v61_eq, Cert.ReferenceIdeal.RefValue.result_q,
      (hagree c).1, (hagree c).2.1, (hagree c).2.2.1]
  · rw [(h c).2.1, Cert.ReferenceIdeal.ReadP.val_main_v79_eq, Cert.ReferenceIdeal.RefValue.result_a,
      (hagree c).1, (hagree c).2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
